-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x512 .f32) (main_arg1 : IVec S2x320000 32) (main_arg2 : FVec F S512x256 .f32) (main_arg3 : FVec F S256 .f32) (main_arg4 : FVec F S256x64 .f32) (main_arg5 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x512 : Shape := ⟨2, ![330000, 512]⟩
abbrev S10000x256 : Shape := ⟨2, ![10000, 256]⟩
abbrev S1000x512 : Shape := ⟨2, ![1000, 512]⟩
abbrev S1000x256 : Shape := ⟨2, ![1000, 256]⟩
abbrev S1x256 : Shape := ⟨2, ![1, 256]⟩
abbrev S330000x256 : Shape := ⟨2, ![330000, 256]⟩
abbrev S10000x64 : Shape := ⟨2, ![10000, 64]⟩
abbrev S1000x64 : Shape := ⟨2, ![1000, 64]⟩
abbrev S1x64 : Shape := ⟨2, ![1, 64]⟩
abbrev S10000x10000 : Shape := ⟨2, ![10000, 10000]⟩
abbrev S200x64 : Shape := ⟨2, ![200, 64]⟩
abbrev S200x10000 : Shape := ⟨2, ![200, 10000]⟩

abbrev nBuf : Space → Nat
  | .hbm => 84
  | .vmem => 17
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000, .i32⟩
  | .hbm, ⟨7, _⟩ => ⟨S1x320000, .i32⟩
  | .hbm, ⟨8, _⟩ => ⟨S320000, .i32⟩
  | .hbm, ⟨9, _⟩ => ⟨S330000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S_, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S330000, .i32⟩
  | .hbm, ⟨32, _⟩ => ⟨S330000, .i1⟩
  | .hbm, ⟨33, _⟩ => ⟨S_, .i32⟩
  | .hbm, ⟨34, _⟩ => ⟨S330000, .i32⟩
  | .hbm, ⟨35, _⟩ => ⟨S330000, .i32⟩
  | .hbm, ⟨36, _⟩ => ⟨S330000, .i32⟩
  | .hbm, ⟨37, _⟩ => ⟨S330000x1, .i32⟩
  | .hbm, ⟨38, _⟩ => ⟨S330000, .f32⟩
  | .hbm, ⟨39, _⟩ => ⟨S_, .i32⟩
  | .hbm, ⟨40, _⟩ => ⟨S330000, .i32⟩
  | .hbm, ⟨41, _⟩ => ⟨S330000, .i1⟩
  | .hbm, ⟨42, _⟩ => ⟨S_, .i32⟩
  | .hbm, ⟨43, _⟩ => ⟨S330000, .i32⟩
  | .hbm, ⟨44, _⟩ => ⟨S330000, .i32⟩
  | .hbm, ⟨45, _⟩ => ⟨S330000, .i32⟩
  | .hbm, ⟨46, _⟩ => ⟨S330000x1, .i32⟩
  | .hbm, ⟨47, _⟩ => ⟨S330000, .f32⟩
  | .hbm, ⟨48, _⟩ => ⟨S330000, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x512, .f32⟩
  | .hbm, ⟨58, _⟩ => ⟨S330000x1, .f32⟩
  | .hbm, ⟨59, _⟩ => ⟨S330000x512, .f32⟩
  | .hbm, ⟨60, _⟩ => ⟨S330000x512, .f32⟩
  | .hbm, ⟨61, _⟩ => ⟨S_, .f32⟩
  | .hbm, ⟨62, _⟩ => ⟨S10000x512, .f32⟩
  | .hbm, ⟨63, _⟩ => ⟨S330000x1, .i32⟩
  | .hbm, ⟨64, _⟩ => ⟨S10000x512, .f32⟩
  | .hbm, ⟨65, _⟩ => ⟨S10000x256, .f32⟩
  | .hbm, ⟨66, _⟩ => ⟨S_, .i32⟩
  | .hbm, ⟨67, _⟩ => ⟨S330000, .i32⟩
  | .hbm, ⟨68, _⟩ => ⟨S330000, .i1⟩
  | .hbm, ⟨69, _⟩ => ⟨S_, .i32⟩
  | .hbm, ⟨70, _⟩ => ⟨S330000, .i32⟩
  | .hbm, ⟨71, _⟩ => ⟨S330000, .i32⟩
  | .hbm, ⟨72, _⟩ => ⟨S330000, .i32⟩
  | .hbm, ⟨73, _⟩ => ⟨S330000x1, .i32⟩
  | .hbm, ⟨74, _⟩ => ⟨S330000x256, .f32⟩
  | .hbm, ⟨75, _⟩ => ⟨S330000x1, .f32⟩
  | .hbm, ⟨76, _⟩ => ⟨S330000x256, .f32⟩
  | .hbm, ⟨77, _⟩ => ⟨S330000x256, .f32⟩
  | .hbm, ⟨78, _⟩ => ⟨S_, .f32⟩
  | .hbm, ⟨79, _⟩ => ⟨S10000x256, .f32⟩
  | .hbm, ⟨80, _⟩ => ⟨S330000x1, .i32⟩
  | .hbm, ⟨81, _⟩ => ⟨S10000x256, .f32⟩
  | .hbm, ⟨82, _⟩ => ⟨S10000x64, .f32⟩
  | .hbm, ⟨83, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x64, .f32⟩
  | .local _ .vmem, ⟨9, _⟩ => ⟨S64, .f32⟩
  | .local _ .vmem, ⟨10, _⟩ => ⟨S1000x64, .f32⟩
  | .local _ .vmem, ⟨11, _⟩ => ⟨S1000x64, .f32⟩
  | .local _ .vmem, ⟨12, _⟩ => ⟨S200x64, .f32⟩
  | .local _ .vmem, ⟨13, _⟩ => ⟨S200x64, .f32⟩
  | .local _ .vmem, ⟨14, _⟩ => ⟨S10000x64, .f32⟩
  | .local _ .vmem, ⟨15, _⟩ => ⟨S200x10000, .f32⟩
  | .local _ .vmem, ⟨16, _⟩ => ⟨S200x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x512_0_1 : S330000x1.BroadcastsInDim S330000x512 (![0, 1] : Fin 2 → Fin S330000x512.rank)
  bcast_S_S10000x512 : S_.BroadcastsInDim S10000x512 (![] : Fin 0 → Fin S10000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  shapeCasts_S1000x256_S1000x256 : S1000x256.ShapeCasts S1000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x512_S330000x1_S330000x512_1_0_n_n_0_1_1512_wf : GatherDims.WF S10000x512 S330000x1 S330000x512 [1] [0] [] [0] [] 1 ![1, 512]
  scatter_S10000x512_S330000x1_S330000x512_1_0_0_1_wf : ScatterDims.WF S10000x512 S330000x1 S330000x512 [1] [0] [0] 1
  dot_S1000x512_S512x256_S1000x256_1_0_0_1_n_n_wf : DotDims.WF S1000x512 S512x256 S1000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S1000x256_S256x64_S1000x64_1_0_0_1_n_n_wf : DotDims.WF S1000x256 S256x64 S1000x64 [1] [0] [0] [1] [] []
  dot_S200x64_S10000x64_S200x10000_1_1_0_0_n_n_wf : DotDims.WF S200x64 S10000x64 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S10000x64.size a
  hwx1_3 : ∀ i : grid1.Coords, EltTy.bits .f32 = 32 ∨ (Rect.block (s := S10000x64) S1000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x64.size a ≤ S10000x64.size a
  hwx2_0 : ∀ i : grid2.Coords, EltTy.bits .f32 = 32 ∨ (Rect.block (s := S10000x64) S200x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x10000.size a ≤ S10000x10000.size a
  hwx2_2 : ∀ i : grid2.Coords, EltTy.bits .f32 = 32 ∨ (Rect.block (s := S10000x10000) S200x10000.size (cc2_transform_2 i) (hinb2_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x512_S330000x1_S330000x512_1_0_n_n_0_1_1512 : GatherDims S10000x512 S330000x1 S330000x512 where
  offsetDims := [1]
  collapsedSliceDims := [0]
  operandBatchingDims := []
  startIndicesBatchingDims := []
  startIndexMap := [0]
  indexVectorDim := 1
  sliceSizes := ![1, 512]
  wf := gather_S10000x512_S330000x1_S330000x512_1_0_n_n_0_1_1512_wf
def scatter_S10000x512_S330000x1_S330000x512_1_0_0_1 : ScatterDims S10000x512 S330000x1 S330000x512 where
  updateWindowDims := [1]
  insertedWindowDims := [0]
  scatterDimsToOperandDims := [0]
  indexVectorDim := 1
  wf := scatter_S10000x512_S330000x1_S330000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_v44) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S200x10000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x512 : Shape := ⟨2, ![330000, 512]⟩
abbrev S10000x256 : Shape := ⟨2, ![10000, 256]⟩
abbrev S1x256 : Shape := ⟨2, ![1, 256]⟩
abbrev S330000x256 : Shape := ⟨2, ![330000, 256]⟩
abbrev S10000x64 : Shape := ⟨2, ![10000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 118
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S10000, .i32⟩
  | .hbm, ⟨7, _⟩ => ⟨S1x320000, .i32⟩
  | .hbm, ⟨8, _⟩ => ⟨S320000, .i32⟩
  | .hbm, ⟨9, _⟩ => ⟨S330000, .i32⟩
  | .hbm, ⟨10, _⟩ => ⟨S1x320000, .i32⟩
  | .hbm, ⟨11, _⟩ => ⟨S320000, .i32⟩
  | .hbm, ⟨12, _⟩ => ⟨S330000, .i32⟩
  | .hbm, ⟨13, _⟩ => ⟨S_, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .i32⟩
  | .hbm, ⟨31, _⟩ => ⟨S330000, .i32⟩
  | .hbm, ⟨32, _⟩ => ⟨S330000, .i1⟩
  | .hbm, ⟨33, _⟩ => ⟨S_, .i32⟩
  | .hbm, ⟨34, _⟩ => ⟨S330000, .i32⟩
  | .hbm, ⟨35, _⟩ => ⟨S330000, .i32⟩
  | .hbm, ⟨36, _⟩ => ⟨S330000, .i32⟩
  | .hbm, ⟨37, _⟩ => ⟨S330000x1, .i32⟩
  | .hbm, ⟨38, _⟩ => ⟨S330000, .f32⟩
  | .hbm, ⟨39, _⟩ => ⟨S_, .i32⟩
  | .hbm, ⟨40, _⟩ => ⟨S330000, .i32⟩
  | .hbm, ⟨41, _⟩ => ⟨S330000, .i1⟩
  | .hbm, ⟨42, _⟩ => ⟨S_, .i32⟩
  | .hbm, ⟨43, _⟩ => ⟨S330000, .i32⟩
  | .hbm, ⟨44, _⟩ => ⟨S330000, .i32⟩
  | .hbm, ⟨45, _⟩ => ⟨S330000, .i32⟩
  | .hbm, ⟨46, _⟩ => ⟨S330000x1, .i32⟩
  | .hbm, ⟨47, _⟩ => ⟨S330000, .f32⟩
  | .hbm, ⟨48, _⟩ => ⟨S330000, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x512, .f32⟩
  | .hbm, ⟨58, _⟩ => ⟨S330000x1, .f32⟩
  | .hbm, ⟨59, _⟩ => ⟨S330000x512, .f32⟩
  | .hbm, ⟨60, _⟩ => ⟨S330000x512, .f32⟩
  | .hbm, ⟨61, _⟩ => ⟨S_, .f32⟩
  | .hbm, ⟨62, _⟩ => ⟨S10000x512, .f32⟩
  | .hbm, ⟨63, _⟩ => ⟨S330000x1, .i32⟩
  | .hbm, ⟨64, _⟩ => ⟨S10000x512, .f32⟩
  | .hbm, ⟨65, _⟩ => ⟨S10000x256, .f32⟩
  | .hbm, ⟨66, _⟩ => ⟨S1x256, .f32⟩
  | .hbm, ⟨67, _⟩ => ⟨S10000x256, .f32⟩
  | .hbm, ⟨68, _⟩ => ⟨S10000x256, .f32⟩
  | .hbm, ⟨69, _⟩ => ⟨S_, .i32⟩
  | .hbm, ⟨70, _⟩ => ⟨S330000, .i32⟩
  | .hbm, ⟨71, _⟩ => ⟨S330000, .i1⟩
  | .hbm, ⟨72, _⟩ => ⟨S_, .i32⟩
  | .hbm, ⟨73, _⟩ => ⟨S330000, .i32⟩
  | .hbm, ⟨74, _⟩ => ⟨S330000, .i32⟩
  | .hbm, ⟨75, _⟩ => ⟨S330000, .i32⟩
  | .hbm, ⟨76, _⟩ => ⟨S330000x1, .i32⟩
  | .hbm, ⟨77, _⟩ => ⟨S330000, .f32⟩
  | .hbm, ⟨78, _⟩ => ⟨S_, .i32⟩
  | .hbm, ⟨79, _⟩ => ⟨S330000, .i32⟩
  | .hbm, ⟨80, _⟩ => ⟨S330000, .i1⟩
  | .hbm, ⟨81, _⟩ => ⟨S_, .i32⟩
  | .hbm, ⟨82, _⟩ => ⟨S330000, .i32⟩
  | .hbm, ⟨83, _⟩ => ⟨S330000, .i32⟩
  | .hbm, ⟨84, _⟩ => ⟨S330000, .i32⟩
  | .hbm, ⟨85, _⟩ => ⟨S330000x1, .i32⟩
  | .hbm, ⟨86, _⟩ => ⟨S330000, .f32⟩
  | .hbm, ⟨87, _⟩ => ⟨S330000, .f32⟩
  | .hbm, ⟨88, _⟩ => ⟨S_, .i32⟩
  | .hbm, ⟨89, _⟩ => ⟨S330000, .i32⟩
  | .hbm, ⟨90, _⟩ => ⟨S330000, .i1⟩
  | .hbm, ⟨91, _⟩ => ⟨S_, .i32⟩
  | .hbm, ⟨92, _⟩ => ⟨S330000, .i32⟩
  | .hbm, ⟨93, _⟩ => ⟨S330000, .i32⟩
  | .hbm, ⟨94, _⟩ => ⟨S330000, .i32⟩
  | .hbm, ⟨95, _⟩ => ⟨S330000x1, .i32⟩
  | .hbm, ⟨96, _⟩ => ⟨S330000x256, .f32⟩
  | .hbm, ⟨97, _⟩ => ⟨S330000x1, .f32⟩
  | .hbm, ⟨98, _⟩ => ⟨S330000x256, .f32⟩
  | .hbm, ⟨99, _⟩ => ⟨S330000x256, .f32⟩
  | .hbm, ⟨100, _⟩ => ⟨S_, .f32⟩
  | .hbm, ⟨101, _⟩ => ⟨S10000x256, .f32⟩
  | .hbm, ⟨102, _⟩ => ⟨S330000x1, .i32⟩
  | .hbm, ⟨103, _⟩ => ⟨S10000x256, .f32⟩
  | .hbm, ⟨104, _⟩ => ⟨S10000x64, .f32⟩
  | .hbm, ⟨105, _⟩ => ⟨S1x64, .f32⟩
  | .hbm, ⟨106, _⟩ => ⟨S10000x64, .f32⟩
  | .hbm, ⟨107, _⟩ => ⟨S10000x64, .f32⟩
  | .hbm, ⟨108, _⟩ => ⟨S64x10000, .f32⟩
  | .hbm, ⟨109, _⟩ => ⟨S10000x10000, .f32⟩
  | .hbm, ⟨110, _⟩ => ⟨S10000x10000, .f32⟩
  | .hbm, ⟨111, _⟩ => ⟨S10000x10000, .f32⟩
  | .hbm, ⟨112, _⟩ => ⟨S_, .f32⟩
  | .hbm, ⟨113, _⟩ => ⟨S10000x10000, .f32⟩
  | .hbm, ⟨114, _⟩ => ⟨S10000x10000, .f32⟩
  | .hbm, ⟨115, _⟩ => ⟨S_, .f32⟩
  | .hbm, ⟨116, _⟩ => ⟨S10000x10000, .f32⟩
  | .hbm, ⟨117, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x512_0_1 : S330000x1.BroadcastsInDim S330000x512 (![0, 1] : Fin 2 → Fin S330000x512.rank)
  bcast_S_S10000x512 : S_.BroadcastsInDim S10000x512 (![] : Fin 0 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x512_S330000x1_S330000x512_1_0_n_n_0_1_1512_wf : GatherDims.WF S10000x512 S330000x1 S330000x512 [1] [0] [] [0] [] 1 ![1, 512]
  scatter_S10000x512_S330000x1_S330000x512_1_0_0_1_wf : ScatterDims.WF S10000x512 S330000x1 S330000x512 [1] [0] [0] 1
  dot_S10000x512_S512x256_S10000x256_1_0_0_1_n_n_wf : DotDims.WF S10000x512 S512x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x64_S10000x64_1_0_0_1_n_n_wf : DotDims.WF S10000x256 S256x64 S10000x64 [1] [0] [0] [1] [] []
  dot_S10000x64_S64x10000_S10000x10000_1_0_0_1_n_n_wf : DotDims.WF S10000x64 S64x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x512_S330000x1_S330000x512_1_0_n_n_0_1_1512 : GatherDims S10000x512 S330000x1 S330000x512 where
  offsetDims := [1]
  collapsedSliceDims := [0]
  operandBatchingDims := []
  startIndicesBatchingDims := []
  startIndexMap := [0]
  indexVectorDim := 1
  sliceSizes := ![1, 512]
  wf := gather_S10000x512_S330000x1_S330000x512_1_0_n_n_0_1_1512_wf
def scatter_S10000x512_S330000x1_S330000x512_1_0_0_1 : ScatterDims S10000x512 S330000x1 S330000x512 where
  updateWindowDims := [1]
  insertedWindowDims := [0]
  scatterDimsToOperandDims := [0]
  indexVectorDim := 1
  wf := scatter_S10000x512_S330000x1_S330000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.BitsR0.lean ====
import proofs.«118749_j50208167690259_1_alg».proof.Proof.Gen.Kernel.Launch
import proofs.«118749_j50208167690259_1_alg».proof.Proof.Gen.Kernel.Skeleton
import proofs.«118749_j50208167690259_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: one dense layer, a row block of the input times the whole weight matrix plus the bias row -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the block was fetched
    there: when it was not, the block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rx0 : Rect S1000x512 := Rect.unit (s := S1000x512) ![0, 0] S1000x512.size inb_S1000x512_S1000x512_0_0
abbrev rw0 : Rect S512x256 := Rect.unit (s := S512x256) ![0, 0] S512x256.size inb_S512x256_S512x256_0_0
abbrev rb0 : Rect S256 := Rect.unit (s := S256) ![0] S256.size inb_S256_S256_0
abbrev ro0 : Rect S1000x256 := Rect.unit (s := S1000x256) ![0, 0] S1000x256.size inb_S1000x256_S1000x256_0_0

/-- What the body leaves in the output window's staging buffer: its one store, of the layer's value on the loaded
    row block, weight matrix and bias. -/
def out0 (x : Vec F S1000x512 .f32) (w : Vec F S512x256 .f32) (b : Vec F S256 .f32) : Vec F S1000x256 .f32 :=
  View.canon [⟨ro0, k0_pay1 (View.ld x rx0) (View.ld w rw0) (View.ld b rb0)⟩]

/-- The one store covers the whole staging buffer. -/
theorem cover0 (p0 : Vec F S1000x256 .f32) (y : S1000x256.Idx) :
    ∃ pc ∈ ([⟨ro0, p0⟩] : List (View.Piece (Elt F) S1000x256 .f32)), y ∈ pc.1.set :=
  View.cover_of_tiled [⟨ro0, p0⟩] S1000x256.size (by rfl) y

set_option maxHeartbeats 1000000 in
/-- The body, run on whole staging buffers holding `x`, `w`, `b` and anything in the output's: it returns them with
    the inputs' as they were and the output's at `out0 x w b`. -/
theorem sound_kernel0 (c : Dev nD) (E : Set ℕ) (i : grid0.Coords)
    (a0 : Memref sig .tc .vmem S1000x512 .f32) (h0 : a0.IsWhole) (a1 : Memref sig .tc .vmem S512x256 .f32) (h1 : a1.IsWhole)
    (a2 : Memref sig .tc .vmem S256 .f32) (h2 : a2.IsWhole) (a3 : Memref sig .tc .vmem S1000x256 .f32) (h3 : a3.IsWhole)
    (x : Vec F S1000x512 .f32) (w : Vec F S512x256 .f32) (b : Vec F S256 .f32) (K : PUnit → sProp 𝕄) :
    iprop(owns (c : Thread nD τ) a0 fullShare x ∗ owns (c : Thread nD τ) a1 fullShare w ∗ owns (c : Thread nD τ) a2 fullShare b
        ∗ (∃ d, owns (c : Thread nD τ) a3 fullShare d)
        ∗ (iprop(owns (c : Thread nD τ) a0 fullShare x ∗ owns (c : Thread nD τ) a1 fullShare w ∗ owns (c : Thread nD τ) a2 fullShare b
            ∗ owns (c : Thread nD τ) a3 fullShare (out0 x w b)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core `c`: the arrays as the region finds them; after the body at a point each input's
    staging buffer still at its block, the output's at `out0` of the three input blocks; the scoped buffers that are no
    staging buffer and the generator register untouched; nothing owed; every array at the full share. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1.lean ====
import proofs.«118749_j50208167690259_1_alg».proof.Proof.Gen.Kernel.Launch
import proofs.«118749_j50208167690259_1_alg».proof.Proof.Gen.Kernel.Skeleton
import proofs.«118749_j50208167690259_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: one dense layer, a row block of the input times the whole weight matrix plus the bias row -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not the block was fetched
    there: when it was not, the block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body loads and stores through. -/
abbrev rx1 : Rect S1000x256 := Rect.unit (s := S1000x256) ![0, 0] S1000x256.size inb_S1000x256_S1000x256_0_0
abbrev rw1 : Rect S256x64 := Rect.unit (s := S256x64) ![0, 0] S256x64.size inb_S256x64_S256x64_0_0
abbrev rb1 : Rect S64 := Rect.unit (s := S64) ![0] S64.size inb_S64_S64_0
abbrev ro1 : Rect S1000x64 := Rect.unit (s := S1000x64) ![0, 0] S1000x64.size inb_S1000x64_S1000x64_0_0

/-- What the body leaves in the output window's staging buffer: its one store, of the layer's value on the loaded
    row block, weight matrix and bias. -/
def out1 (x : Vec F S1000x256 .f32) (w : Vec F S256x64 .f32) (b : Vec F S64 .f32) : Vec F S1000x64 .f32 :=
  View.canon [⟨ro1, k1_pay1 (View.ld x rx1) (View.ld w rw1) (View.ld b rb1)⟩]

/-- The one store covers the whole staging buffer. -/
theorem cover1 (p0 : Vec F S1000x64 .f32) (y : S1000x64.Idx) :
    ∃ pc ∈ ([⟨ro1, p0⟩] : List (View.Piece (Elt F) S1000x64 .f32)), y ∈ pc.1.set :=
  View.cover_of_tiled [⟨ro1, p0⟩] S1000x64.size (by rfl) y

set_option maxHeartbeats 1000000 in
/-- The body, run on whole staging buffers holding `x`, `w`, `b` and anything in the output's: it returns them with
    the inputs' as they were and the output's at `out1 x w b`. -/
theorem sound_kernel1 (c : Dev nD) (E : Set ℕ) (i : grid1.Coords)
    (a0 : Memref sig .tc .vmem S1000x256 .f32) (h0 : a0.IsWhole) (a1 : Memref sig .tc .vmem S256x64 .f32) (h1 : a1.IsWhole)
    (a2 : Memref sig .tc .vmem S64 .f32) (h2 : a2.IsWhole) (a3 : Memref sig .tc .vmem S1000x64 .f32) (h3 : a3.IsWhole)
    (x : Vec F S1000x256 .f32) (w : Vec F S256x64 .f32) (b : Vec F S64 .f32) (K : PUnit → sProp 𝕄) :
    iprop(owns (c : Thread nD τ) a0 fullShare x ∗ owns (c : Thread nD τ) a1 fullShare w ∗ owns (c : Thread nD τ) a2 fullShare b
        ∗ (∃ d, owns (c : Thread nD τ) a3 fullShare d)
        ∗ (iprop(owns (c : Thread nD τ) a0 fullShare x ∗ owns (c : Thread nD τ) a1 fullShare w ∗ owns (c : Thread nD τ) a2 fullShare b
            ∗ owns (c : Thread nD τ) a3 fullShare (out1 x w b)) -∗ K ⟨⟩))
      ⊢ wp frame (wpE (defs₀ (F := F)) Variants.none c none) E (cc1__linear_kernel i a0 h0 a1 h1 a2 h2 a3 h3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The region's proof data on core `c`: the arrays as the region finds them; after the body at a point each input's
    staging buffer still at its block, the output's at `out1` of the three input blocks; the scoped buffers that are no
    staging buffer and the generator register untouched; nothing owed; every array at the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsR2.lean ====
import proofs.«118749_j50208167690259_1_alg».proof.Proof.Gen.Kernel.Launch
import proofs.«118749_j50208167690259_1_alg».proof.Proof.Gen.Kernel.Skeleton
import proofs.«118749_j50208167690259_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the decode — a row block of the embedding against the whole embedding, then the logistic function.
    Both input windows read the SAME array (the embedding): the proof data deals its full share in two halves. -/

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not the block was fetched
    there: when it was not, the block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body loads and stores through. -/
abbrev rz2 : Rect S200x64 := Rect.unit (s := S200x64) ![0, 0] S200x64.size inb_S200x64_S200x64_0_0
abbrev rZ2 : Rect S10000x64 := Rect.unit (s := S10000x64) ![0, 0] S10000x64.size inb_S10000x64_S10000x64_0_0
abbrev ro2 : Rect S200x10000 := Rect.unit (s := S200x10000) ![0, 0] S200x10000.size inb_S200x10000_S200x10000_0_0

/-- What the body leaves in the output window's staging buffer: its one store, of the decode's value on the loaded row
    block and the loaded whole embedding. -/
def out2 (z : Vec F S200x64 .f32) (zz : Vec F S10000x64 .f32) : Vec F S200x10000 .f32 :=
  View.canon [⟨ro2, k2_pay1 (View.ld z rz2) (View.ld zz rZ2)⟩]

/-- The one store covers the whole staging buffer. -/
theorem cover2 (p0 : Vec F S200x10000 .f32) (y : S200x10000.Idx) :
    ∃ pc ∈ ([⟨ro2, p0⟩] : List (View.Piece (Elt F) S200x10000 .f32)), y ∈ pc.1.set :=
  View.cover_of_tiled [⟨ro2, p0⟩] S200x10000.size (by rfl) y

set_option maxHeartbeats 1000000 in
/-- The body, run on whole staging buffers holding `z`, `zz` and anything in the output's: it returns them with the
    inputs' as they were and the output's at `out2 z zz`. -/
theorem sound_kernel2 (c : Dev nD) (E : Set ℕ) (i : grid2.Coords)
    (a0 : Memref sig .tc .vmem S200x64 .f32) (h0 : a0.IsWhole) (a1 : Memref sig .tc .vmem S10000x64 .f32) (h1 : a1.IsWhole)
    (a2 : Memref sig .tc .vmem S200x10000 .f32) (h2 : a2.IsWhole)
    (z : Vec F S200x64 .f32) (zz : Vec F S10000x64 .f32) (K : PUnit → sProp 𝕄) :
    iprop(owns (c : Thread nD τ) a0 fullShare z ∗ owns (c : Thread nD τ) a1 fullShare zz
        ∗ (∃ d, owns (c : Thread nD τ) a2 fullShare d)
        ∗ (iprop(owns (c : Thread nD τ) a0 fullShare z ∗ owns (c : Thread nD τ) a1 fullShare zz
            ∗ owns (c : Thread nD τ) a2 fullShare (out2 z zz)) -∗ K ⟨⟩))
      ⊢ wp frame (wpE (defs₀ (F := F)) Variants.none c none) E (cc2__zzt_kernel i a0 h0 a1 h1 a2 h2) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at a point each input's
    staging buffer still at its block, the output's at `out2` of the two input blocks; the scoped buffers that are no
    staging buffer and the generator register untouched; nothing owed; the embedding's array read by window 0 at the
    left half of the full share and by window 1 at the right half. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) :
    (dat2 V c).after 2 t = out2 (blk2 V c 0 t) (blk2 V c 1 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsShare2.lean ====
import proofs.«118749_j50208167690259_1_alg».proof.Proof.Gen.Kernel.Launch
import proofs.«118749_j50208167690259_1_alg».proof.Proof.Gen.Kernel.Skeleton
import proofs.«118749_j50208167690259_1_alg».proof.Proof.Gen.Kernel.Points
import proofs.«118749_j50208167690259_1_alg».proof.Proof.BitsR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2's arrays: one buffer behind two windows

The decode hands the embedding's array to both of its input windows. Behind the three windows' arrays there are two
buffers, the embedding's and the result's; the embedding's full share is dealt to window 0 as the left half and to
window 1 as the right half, and put together again at the region's exit. -/

/-- The buffers behind the three windows' arrays are the embedding's and the result's. -/
theorem arrImage2 : (Finset.univ.image (Pipeline.arrRef spec2) : Finset (Ref sig .tc)) = {main_v59, main_v60} := by decide

set_option maxHeartbeats 4000000 in
/-- The two buffers, each whole at the full share at contents `G`, are the three windows' arrays at the contents `G` gives
    their buffers, for proof data that reads the embedding at the two halves of the full share — and back. -/
theorem arrBufs2_iff {c : Dev nD} (dat : Dat τ (Elt F) Unit ℕ (UR sig nD τ) ℕ cfg2 c)
    (hq0 : dat.share 0 = fullShare.left) (hq1 : dat.share 1 = fullShare.right) (hq2 : dat.share 2 = fullShare)
    (G : (b : Ref sig .tc) → Buf (Elt F) ((c : Thread nD τ).loc b)) :
    (Pipeline.arrBufs spec2 c G : sProp 𝕄) ⊣⊢ dat.arrays fun w => G (Pipeline.arrRef spec2 w) := by
  have h0 : (cfg2.win 0).arr.view.set = Finset.univ := (arr_whole2 0).set_eq_univ
  have h2 : (cfg2.win 2).arr.view.set = Finset.univ := (arr_whole2 2).set_eq_univ
  unfold Pipeline.arrBufs Dat.arrays
  rw [arrImage2, bigSep_W2, bigSep_insert (by decide : main_v59 ∉ ({main_v60} : Finset (Ref sig .tc))), bigSep_singleton,
    h0, h2, hq0, hq1, hq2]
  show iprop((((c : Thread nD τ).loc main_v59) ↦{fullShare} G main_v59) ∗ (((c : Thread nD τ).loc main_v60) ↦{fullShare} G main_v60))
    ⊣⊢ iprop((((c : Thread nD τ).loc main_v59) ↦{fullShare.left} G main_v59) ∗ (((c : Thread nD τ).loc main_v59) ↦{fullShare.right} G main_v59)
      ∗ (((c : Thread nD τ).loc main_v60) ↦{fullShare} G main_v60))
  refine ⟨?_, ?_⟩
  · iintro ⟨H59, H60⟩
    ihave H := (pointsTo_share (PosShare.mem_left_op_right fullShare)).1 $$ H59
    icases H with ⟨Hl, Hr⟩
    isplitl [Hl]; · iexact Hl
    isplitl [Hr]; · iexact Hr
    iexact H60
  · iintro ⟨Hl, Hr, H60⟩
    isplitl [Hl Hr]
    · iapply (pointsTo_share (PosShare.mem_left_op_right fullShare)).2
      isplitl [Hl]; · iexact Hl
      iexact Hr
    iexact H60

/-- ENTRY: the core's unscoped buffers at contents `G` are region 2's arrays at their entry contents and the rest. -/
theorem arrays2_of_unscopedBufs {c : Dev nD} (dat : Dat τ (Elt F) Unit ℕ (UR sig nD τ) ℕ cfg2 c)
    (hq0 : dat.share 0 = fullShare.left) (hq1 : dat.share 1 = fullShare.right) (hq2 : dat.share 2 = fullShare)
    (G : (b : Ref sig .tc) → Buf (Elt F) ((c : Thread nD τ).loc b)) (hA : ∀ w, dat.A w = G (Pipeline.arrRef spec2 w)) :
    (unscopedBufs c G : sProp 𝕄) ⊢ iprop(dat.arrays (dat.arrAt · 0) ∗ Pipeline.unscopedRest spec2 c G) := by
  rw [Pipeline.unscopedBufs_split₀ cfgs 2 winFacts₀2.arr_unscoped c G,
    show (dat.arrAt · 0) = fun w => G (Pipeline.arrRef spec2 w) from funext fun w => (show dat.arrAt w 0 = dat.A w from rfl).trans (hA w)]
  exact sep_mono (arrBufs2_iff dat hq0 hq1 hq2 G).1 .rfl

/-- EXIT: region 2's arrays at contents `F` and the rest at `G` are the core's unscoped buffers at any contents `G'` that
    has the arrays' buffers at `F` and agrees with `G` off them. -/
theorem unscopedBufs_of_arrays2 {c : Dev nD} (dat : Dat τ (Elt F) Unit ℕ (UR sig nD τ) ℕ cfg2 c)
    (hq0 : dat.share 0 = fullShare.left) (hq1 : dat.share 1 = fullShare.right) (hq2 : dat.share 2 = fullShare)
    (G G' : (b : Ref sig .tc) → Buf (Elt F) ((c : Thread nD τ).loc b))
    (Fa : (w : Fin cfg2.W) → Buf (Elt F) ((cfg2.win w).arr.view.loc (c : Thread nD τ)))
    (hF : ∀ w, Fa w = G' (Pipeline.arrRef spec2 w))
    (hrest : ∀ b, b ∉ Finset.univ.image (Pipeline.arrRef spec2) → G' b = G b) :
    iprop(dat.arrays Fa ∗ Pipeline.unscopedRest spec2 c G) ⊢ (unscopedBufs c G' : sProp 𝕄) := by
  rw [Pipeline.unscopedBufs_split₀ cfgs 2 winFacts₀2.arr_unscoped c G',
    show Fa = fun w => G' (Pipeline.arrRef spec2 w) from funext hF]
  refine sep_mono (arrBufs2_iff dat hq0 hq1 hq2 G').2 (Entails.of_eq ?_)
  unfold Pipeline.unscopedRest
  exact bigSep_congr fun b hb => by rw [hrest b (Finset.mem_sdiff.mp hb).2]

end Cert.Kernel.Hand

end
-- ==== Proof.BitsKitRun.lean ====
import proofs.«118749_j50208167690259_1_alg».proof.Proof.Gen.Kernel.Launch
import proofs.«118749_j50208167690259_1_alg».proof.Proof.Gen.Kernel.Skeleton
import proofs.«118749_j50208167690259_1_alg».proof.Proof.Gen.Kernel.Points
import proofs.«118749_j50208167690259_1_alg».proof.Proof.BitsR0
import proofs.«118749_j50208167690259_1_alg».proof.Proof.BitsR1
import proofs.«118749_j50208167690259_1_alg».proof.Proof.BitsShare2
import proofs.«118749_j50208167690259_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: three host stretches, the first layer, a host stretch, the second layer, the decode

The buffer contents at each boundary between two items of @main are a fold from the launch memory: a host stretch
applies its operations, a region replaces its output array by what its pipeline's write-backs leave. Each region is a
segment of the pipeline library's run of several regions; the run's post reads the result array and the arguments off
the last boundary's contents. -/

variable (m : (ℓ : Loc nD τ sig) → Buf (Elt F) ℓ)

/-- Core `c`'s unscoped buffers at launch, -/
abbrev U0 : Dev nD → Valuation τ sig (Elt F) := fun c b => m (c, b)
/-- after the first host stretch (the edge lists with the self-loops, the degrees), -/
abbrev U1 : Dev nD → Valuation τ sig (Elt F) := fun c => StableHlo.after hostOps0 (U0 m c)
/-- after the second (the select that guards the inverse square roots of the degrees), -/
abbrev U2 : Dev nD → Valuation τ sig (Elt F) := fun c => StableHlo.after hostOps0_1 (U1 m c)
/-- and after the third (the edge weights, the first gather, scale and scatter-add): the first layer's entry. -/
abbrev U3 : Dev nD → Valuation τ sig (Elt F) := fun c => StableHlo.after hostOps0_2 (U2 m c)
abbrev A3 : (c : Dev nD) → (b : Ref sig .tc) → Buf (Elt F) ((c : Thread nD τ).loc b) := fun c b => U3 m c b

/-- What region 0 leaves in its output array: the pipeline's write-backs folded over the array as the region found it. -/
def o0 (c : Dev nD) : Buf (Elt F) ((c : Thread nD τ).loc main_v45) := (dat0 (A3 m) c).arrAt 3 cfg0.N
/-- Core `c`'s unscoped buffers after region 0: as before it, but for the output array. -/
def U0x (c : Dev nD) : Valuation τ sig (Elt F) := Function.update (U3 m c) main_v45 (o0 m c)
theorem U0x_self (c : Dev nD) : U0x m c (Proc.devRef .tc main_v45) = o0 m c := by
  unfold U0x; exact Function.update_self ..
theorem U0x_of_ne (c : Dev nD) (b : Ref sig .tc) (h : b ≠ main_v45) :
    U0x m c (Proc.devRef .tc b) = U3 m c (Proc.devRef .tc b) := by
  unfold U0x; exact Function.update_of_ne (StableHlo.devRef_ne_of_ne h) ..
/-- The same read at the TensorCore's references. -/
abbrev A0x : (c : Dev nD) → (b : Ref sig .tc) → Buf (Elt F) ((c : Thread nD τ).loc b) := fun c b => U0x m c b

/-- After the host stretch between the two layers (the second gather, scale and scatter-add): the second layer's entry. -/
abbrev U5 : Dev nD → Valuation τ sig (Elt F) := fun c => StableHlo.after hostOps1 (U0x m c)
abbrev A5 : (c : Dev nD) → (b : Ref sig .tc) → Buf (Elt F) ((c : Thread nD τ).loc b) := fun c b => U5 m c b

/-- What region 1 leaves in its output array: the pipeline's write-backs folded over the array as the region found it. -/
def o1 (c : Dev nD) : Buf (Elt F) ((c : Thread nD τ).loc main_v59) := (dat1 (A5 m) c).arrAt 3 cfg1.N
/-- Core `c`'s unscoped buffers after region 1: as before it, but for the output array. -/
def U1x (c : Dev nD) : Valuation τ sig (Elt F) := Function.update (U5 m c) main_v59 (o1 m c)
theorem U1x_self (c : Dev nD) : U1x m c (Proc.devRef .tc main_v59) = o1 m c := by
  unfold U1x; exact Function.update_self ..
theorem U1x_of_ne (c : Dev nD) (b : Ref sig .tc) (h : b ≠ main_v59) :
    U1x m c (Proc.devRef .tc b) = U5 m c (Proc.devRef .tc b) := by
  unfold U1x; exact Function.update_of_ne (StableHlo.devRef_ne_of_ne h) ..
/-- The same read at the TensorCore's references. -/
abbrev A1x : (c : Dev nD) → (b : Ref sig .tc) → Buf (Elt F) ((c : Thread nD τ).loc b) := fun c b => U1x m c b

/-- What region 2 leaves in its output array: the pipeline's write-backs folded over the array as the region found it. -/
def o2 (c : Dev nD) : Buf (Elt F) ((c : Thread nD τ).loc main_v60) := (dat2 (A1x m) c).arrAt 2 cfg2.N
/-- Core `c`'s unscoped buffers after region 2: as before it, but for the output array. -/
def U2x (c : Dev nD) : Valuation τ sig (Elt F) := Function.update (U1x m c) main_v60 (o2 m c)
theorem U2x_self (c : Dev nD) : U2x m c (Proc.devRef .tc main_v60) = o2 m c := by
  unfold U2x; exact Function.update_self ..
theorem U2x_of_ne (c : Dev nD) (b : Ref sig .tc) (h : b ≠ main_v60) :
    U2x m c (Proc.devRef .tc b) = U1x m c (Proc.devRef .tc b) := by
  unfold U2x; exact Function.update_of_ne (StableHlo.devRef_ne_of_ne h) ..
/-- The same read at the TensorCore's references. -/
abbrev A2x : (c : Dev nD) → (b : Ref sig .tc) → Buf (Elt F) ((c : Thread nD τ).loc b) := fun c b => U2x m c b

/-! ## At a region's exit each of its arrays holds what the pipeline leaves, every other buffer what it held -/

theorem hF0 (c : Dev nD) (w : Fin cfg0.W) : (dat0 (A3 m) c).arrAt w cfg0.N = A0x m c (Pipeline.arrRef spec0 w) :=
  match w with
  | ⟨0, _⟩ => (((dat0 (A3 m) c).arrAt_in 0 rfl _).trans (A_eq0 (A3 m) c 0)).trans (U0x_of_ne m c main_v44 (by decide)).symm
  | ⟨1, _⟩ => (((dat0 (A3 m) c).arrAt_in 1 rfl _).trans (A_eq0 (A3 m) c 1)).trans (U0x_of_ne m c main_arg2 (by decide)).symm
  | ⟨2, _⟩ => (((dat0 (A3 m) c).arrAt_in 2 rfl _).trans (A_eq0 (A3 m) c 2)).trans (U0x_of_ne m c main_arg3 (by decide)).symm
  | ⟨3, _⟩ => (U0x_self m c).symm
theorem hrest0 (c : Dev nD) : ∀ b, b ∉ Finset.univ.image (Pipeline.arrRef spec0) → A0x m c b = A3 m c b :=
  fun b hb => U0x_of_ne m c b fun e => hb (Finset.mem_image.mpr ⟨3, Finset.mem_univ _, e.symm⟩)

theorem hF1 (c : Dev nD) (w : Fin cfg1.W) : (dat1 (A5 m) c).arrAt w cfg1.N = A1x m c (Pipeline.arrRef spec1 w) :=
  match w with
  | ⟨0, _⟩ => (((dat1 (A5 m) c).arrAt_in 0 rfl _).trans (A_eq1 (A5 m) c 0)).trans (U1x_of_ne m c main_v58 (by decide)).symm
  | ⟨1, _⟩ => (((dat1 (A5 m) c).arrAt_in 1 rfl _).trans (A_eq1 (A5 m) c 1)).trans (U1x_of_ne m c main_arg4 (by decide)).symm
  | ⟨2, _⟩ => (((dat1 (A5 m) c).arrAt_in 2 rfl _).trans (A_eq1 (A5 m) c 2)).trans (U1x_of_ne m c main_arg5 (by decide)).symm
  | ⟨3, _⟩ => (U1x_self m c).symm
theorem hrest1 (c : Dev nD) : ∀ b, b ∉ Finset.univ.image (Pipeline.arrRef spec1) → A1x m c b = A5 m c b :=
  fun b hb => U1x_of_ne m c b fun e => hb (Finset.mem_image.mpr ⟨3, Finset.mem_univ _, e.symm⟩)

theorem hF2 (c : Dev nD) (w : Fin cfg2.W) : (dat2 (A1x m) c).arrAt w cfg2.N = A2x m c (Pipeline.arrRef spec2 w) :=
  match w with
  | ⟨0, _⟩ => (((dat2 (A1x m) c).arrAt_in 0 rfl _).trans (A_eq2 (A1x m) c 0)).trans (U2x_of_ne m c main_v59 (by decide)).symm
  | ⟨1, _⟩ => (((dat2 (A1x m) c).arrAt_in 1 rfl _).trans (A_eq2 (A1x m) c 1)).trans (U2x_of_ne m c main_v59 (by decide)).symm
  | ⟨2, _⟩ => (U2x_self m c).symm
theorem hrest2 (c : Dev nD) : ∀ b, b ∉ Finset.univ.image (Pipeline.arrRef spec2) → A2x m c b = A1x m c b :=
  fun b hb => U2x_of_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (A3 m) c
  | ⟨1, _⟩ => fun c => dat1 (A5 m) c
  | ⟨2, _⟩ => fun c => dat2 (A1x m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (U2x m c) ∗ ∃ r, prngReg c r)

/-! ## The regions as segments -/

-- the library's lemmas are stated over the pinned configuration, which unifies with the printed one only when
-- unification may unfold plain definitions in a metavariable's type
set_option backward.isDefEq.respectTransparency.types false in
/-- Region 0 as a segment of @main: entered with every unscoped buffer at `U3`, left with them at the same contents
    but for the layer's output array, which holds what the pipeline's write-backs leave. The region's arrays are split
    out of the unscoped buffers at entry and put back at exit; the generator register rides in the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A3 m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U0x m c) ∗ R c)
  X c := iprop(∃ r, prngReg c r)
  Y c := iprop(∃ r, prngReg c r)
  Z c := Pipeline.unscopedRest (Ix := Unit) (Name := ℕ) (U := UR sig nD τ) (Lvl := ℕ) spec0 c (A3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A3 m c) (A0x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Region 1 as a segment of @main: entered with every unscoped buffer at `U5`, left with them at the same contents
    but for the layer's output array, which holds what the pipeline's write-backs leave. The region's arrays are split
    out of the unscoped buffers at entry and put back at exit; the generator register rides in the invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U1x m c) ∗ R c)
  X c := iprop(∃ r, prngReg c r)
  Y c := iprop(∃ r, prngReg c r)
  Z c := Pipeline.unscopedRest (Ix := Unit) (Name := ℕ) (U := UR sig nD τ) (Lvl := ℕ) spec1 c (A5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A5 m c) (A1x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem share2_0 (c : Dev nD) : (pdats m 2 c).share 0 = fullShare.left := rfl
theorem share2_1 (c : Dev nD) : (pdats m 2 c).share 1 = fullShare.right := rfl
theorem share2_2 (c : Dev nD) : (pdats m 2 c).share 2 = fullShare := rfl

set_option backward.isDefEq.respectTransparency.types false in
/-- The decode as a segment of @main: entered with every unscoped buffer at `U1x`, left with them at the same contents but
    for the result array. Its two input windows read one array: the embedding's buffer is dealt to them in two halves at
    entry and put together at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (A1x m) c).loose
  hwaits := Pipeline.hwaits_of_owed_zero _ _ _ _ L lv 2 fun _ _ => rfl
  pre c := iprop(StableHlo.held (c : Thread nD τ) (Pipeline.ucRefs τ sig) (U1x m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (A1x m c)
  hentry c := by
    rw [Pipeline.ownSems0_none]
    have hsplit := arrays2_of_unscopedBufs (pdats m 2 c) (share2_0 m c) (share2_1 m c) (share2_2 m c) (A1x m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (pdats m 2 c) (share2_0 m c) (share2_1 m c) (share2_2 m c)
      (A1x m c) (A2x m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order: a host segment per stretch from its boundary's contents, a region per pallas_call. -/
abbrev segs : List (Pipeline.Seg (pcfgs (F := F)) adm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U0x m)),
    .region (reg1 m),
    .region (reg2 m) ]

/-- No host stretch writes an argument, and no region's output array is one: an argument's buffer at the last boundary
    holds its launch contents. -/
theorem U2x_arg (c : Dev nD) (r : Ref sig .tc) (h0 : r ∉ hostOps0_W) (h1 : r ∉ hostOps0_1_W) (h2 : r ∉ hostOps0_2_W) (h3 : r ∉ hostOps1_W)
    (n0 : r ≠ main_v45) (n1 : r ≠ main_v59) (n2 : r ≠ main_v60) :
    U2x m c (Proc.devRef .tc r) = m ((c : Thread nD τ).loc r) :=
  (U2x_of_ne m c r n2).trans <| (U1x_of_ne m c r n1).trans <|
    (StableHlo.after_of_writes_sub hostOps1 _ hostOps1_writes h3).trans <| (U0x_of_ne m c r n0).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

variable (ρ : Dev nD → PrngReg)

set_option backward.isDefEq.respectTransparency.types false in
/-- THE RUN, at any float instance: from any memory with zero counters every weakly fair execution of @main terminates,
    nothing faulting; the result array ends at what the decode's write-backs leave (`o2`), every argument as launched. -/
theorem run_main : θ_run defs (onTc (τ := τ) (main (F := F))) ⟨m, fun _ => 0, ρ⟩ (fun r => ∀ c : Dev nD,
      r.2.mem ((c.tc : Thread nD τ).loc main_v60) = o2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U2x m c b)
    (hfin := fun c s' => by
      iintro ⟨⟨Hh, -⟩, HSI⟩
      unfold StableHlo.held
      imodintro
      iapply (pointsTo_read_all (Pipeline.ucRefs τ sig) (fun b => (((c : Thread nD τ)).1, b)) (U2x m c) s')
      isplitl [Hh] <;> iassumption)
    (hQ := fun s h c =>
      ⟨(h c _ (mem_uc main_v60 (by decide))).trans (U2x_self m c),
       (h c _ (mem_uc main_arg0 (by decide))).trans (U2x_arg m c main_arg0 (by decide) (by decide) (by decide) (by decide) (by decide) (by decide) (by decide)),
       (h c _ (mem_uc main_arg1 (by decide))).trans (U2x_arg m c main_arg1 (by decide) (by decide) (by decide) (by decide) (by decide) (by decide) (by decide)),
       (h c _ (mem_uc main_arg2 (by decide))).trans (U2x_arg m c main_arg2 (by decide) (by decide) (by decide) (by decide) (by decide) (by decide) (by decide)),
       (h c _ (mem_uc main_arg3 (by decide))).trans (U2x_arg m c main_arg3 (by decide) (by decide) (by decide) (by decide) (by decide) (by decide) (by decide)),
       (h c _ (mem_uc main_arg4 (by decide))).trans (U2x_arg m c main_arg4 (by decide) (by decide) (by decide) (by decide) (by decide) (by decide) (by decide)),
       (h c _ (mem_uc main_arg5 (by decide))).trans (U2x_arg m c main_arg5 (by decide) (by decide) (by decide) (by decide) (by decide) (by decide) (by decide))⟩)

end Cert.Kernel.Hand

end
-- ==== Proof.R0.lean ====
import proofs.«118749_j50208167690259_1_alg».proof.Proof.Gen.KernelIdeal.Launch
import proofs.«118749_j50208167690259_1_alg».proof.Proof.Gen.KernelIdeal.Skeleton
import proofs.«118749_j50208167690259_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: one dense layer, a row block of the input times the whole weight matrix plus the bias row -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not the block was fetched
    there: when it was not, the block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body loads and stores through. -/
abbrev rx0 : Rect S1000x512 := Rect.unit (s := S1000x512) ![0, 0] S1000x512.size inb_S1000x512_S1000x512_0_0
abbrev rw0 : Rect S512x256 := Rect.unit (s := S512x256) ![0, 0] S512x256.size inb_S512x256_S512x256_0_0
abbrev rb0 : Rect S256 := Rect.unit (s := S256) ![0] S256.size inb_S256_S256_0
abbrev ro0 : Rect S1000x256 := Rect.unit (s := S1000x256) ![0, 0] S1000x256.size inb_S1000x256_S1000x256_0_0

/-- What the body leaves in the output window's staging buffer: its one store, of the layer's value on the loaded
    row block, weight matrix and bias. -/
def out0 (x : Vec F S1000x512 .f32) (w : Vec F S512x256 .f32) (b : Vec F S256 .f32) : Vec F S1000x256 .f32 :=
  View.canon [⟨ro0, k0_pay1 (View.ld x rx0) (View.ld w rw0) (View.ld b rb0)⟩]

/-- The one store covers the whole staging buffer. -/
theorem cover0 (p0 : Vec F S1000x256 .f32) (y : S1000x256.Idx) :
    ∃ pc ∈ ([⟨ro0, p0⟩] : List (View.Piece (Elt F) S1000x256 .f32)), y ∈ pc.1.set :=
  View.cover_of_tiled [⟨ro0, p0⟩] S1000x256.size (by rfl) y

set_option maxHeartbeats 1000000 in
/-- The body, run on whole staging buffers holding `x`, `w`, `b` and anything in the output's: it returns them with
    the inputs' as they were and the output's at `out0 x w b`. -/
theorem sound_kernel0 (c : Dev nD) (E : Set ℕ) (i : grid0.Coords)
    (a0 : Memref sig .tc .vmem S1000x512 .f32) (h0 : a0.IsWhole) (a1 : Memref sig .tc .vmem S512x256 .f32) (h1 : a1.IsWhole)
    (a2 : Memref sig .tc .vmem S256 .f32) (h2 : a2.IsWhole) (a3 : Memref sig .tc .vmem S1000x256 .f32) (h3 : a3.IsWhole)
    (x : Vec F S1000x512 .f32) (w : Vec F S512x256 .f32) (b : Vec F S256 .f32) (K : PUnit → sProp 𝕄) :
    iprop(owns (c : Thread nD τ) a0 fullShare x ∗ owns (c : Thread nD τ) a1 fullShare w ∗ owns (c : Thread nD τ) a2 fullShare b
        ∗ (∃ d, owns (c : Thread nD τ) a3 fullShare d)
        ∗ (iprop(owns (c : Thread nD τ) a0 fullShare x ∗ owns (c : Thread nD τ) a1 fullShare w ∗ owns (c : Thread nD τ) a2 fullShare b
            ∗ owns (c : Thread nD τ) a3 fullShare (out0 x w b)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core `c`: the arrays as the region finds them; after the body at a point each input's
    staging buffer still at its block, the output's at `out0` of the three input blocks; the scoped buffers that are no
    staging buffer and the generator register untouched; nothing owed; every array at the full share. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
import proofs.«118749_j50208167690259_1_alg».proof.Proof.Gen.KernelIdeal.Launch
import proofs.«118749_j50208167690259_1_alg».proof.Proof.Gen.KernelIdeal.Skeleton
import proofs.«118749_j50208167690259_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: one dense layer, a row block of the input times the whole weight matrix plus the bias row -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not the block was fetched
    there: when it was not, the block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole-buffer rectangles the body loads and stores through. -/
abbrev rx1 : Rect S1000x256 := Rect.unit (s := S1000x256) ![0, 0] S1000x256.size inb_S1000x256_S1000x256_0_0
abbrev rw1 : Rect S256x64 := Rect.unit (s := S256x64) ![0, 0] S256x64.size inb_S256x64_S256x64_0_0
abbrev rb1 : Rect S64 := Rect.unit (s := S64) ![0] S64.size inb_S64_S64_0
abbrev ro1 : Rect S1000x64 := Rect.unit (s := S1000x64) ![0, 0] S1000x64.size inb_S1000x64_S1000x64_0_0

/-- What the body leaves in the output window's staging buffer: its one store, of the layer's value on the loaded
    row block, weight matrix and bias. -/
def out1 (x : Vec F S1000x256 .f32) (w : Vec F S256x64 .f32) (b : Vec F S64 .f32) : Vec F S1000x64 .f32 :=
  View.canon [⟨ro1, k1_pay1 (View.ld x rx1) (View.ld w rw1) (View.ld b rb1)⟩]

/-- The one store covers the whole staging buffer. -/
theorem cover1 (p0 : Vec F S1000x64 .f32) (y : S1000x64.Idx) :
    ∃ pc ∈ ([⟨ro1, p0⟩] : List (View.Piece (Elt F) S1000x64 .f32)), y ∈ pc.1.set :=
  View.cover_of_tiled [⟨ro1, p0⟩] S1000x64.size (by rfl) y

set_option maxHeartbeats 1000000 in
/-- The body, run on whole staging buffers holding `x`, `w`, `b` and anything in the output's: it returns them with
    the inputs' as they were and the output's at `out1 x w b`. -/
theorem sound_kernel1 (c : Dev nD) (E : Set ℕ) (i : grid1.Coords)
    (a0 : Memref sig .tc .vmem S1000x256 .f32) (h0 : a0.IsWhole) (a1 : Memref sig .tc .vmem S256x64 .f32) (h1 : a1.IsWhole)
    (a2 : Memref sig .tc .vmem S64 .f32) (h2 : a2.IsWhole) (a3 : Memref sig .tc .vmem S1000x64 .f32) (h3 : a3.IsWhole)
    (x : Vec F S1000x256 .f32) (w : Vec F S256x64 .f32) (b : Vec F S64 .f32) (K : PUnit → sProp 𝕄) :
    iprop(owns (c : Thread nD τ) a0 fullShare x ∗ owns (c : Thread nD τ) a1 fullShare w ∗ owns (c : Thread nD τ) a2 fullShare b
        ∗ (∃ d, owns (c : Thread nD τ) a3 fullShare d)
        ∗ (iprop(owns (c : Thread nD τ) a0 fullShare x ∗ owns (c : Thread nD τ) a1 fullShare w ∗ owns (c : Thread nD τ) a2 fullShare b
            ∗ owns (c : Thread nD τ) a3 fullShare (out1 x w b)) -∗ K ⟨⟩))
      ⊢ wp frame (wpE (defs₀ (F := F)) Variants.none c none) E (cc1__linear_kernel i a0 h0 a1 h1 a2 h2 a3 h3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The region's proof data on core `c`: the arrays as the region finds them; after the body at a point each input's
    staging buffer still at its block, the output's at `out1` of the three input blocks; the scoped buffers that are no
    staging buffer and the generator register untouched; nothing owed; every array at the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2.lean ====
import proofs.«118749_j50208167690259_1_alg».proof.Proof.Gen.KernelIdeal.Launch
import proofs.«118749_j50208167690259_1_alg».proof.Proof.Gen.KernelIdeal.Skeleton
import proofs.«118749_j50208167690259_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the decode — a row block of the embedding against the whole embedding, then the logistic function.
    Both input windows read the SAME array (the embedding): the proof data deals its full share in two halves. -/

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not the block was fetched
    there: when it was not, the block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole-buffer rectangles the body loads and stores through. -/
abbrev rz2 : Rect S200x64 := Rect.unit (s := S200x64) ![0, 0] S200x64.size inb_S200x64_S200x64_0_0
abbrev rZ2 : Rect S10000x64 := Rect.unit (s := S10000x64) ![0, 0] S10000x64.size inb_S10000x64_S10000x64_0_0
abbrev ro2 : Rect S200x10000 := Rect.unit (s := S200x10000) ![0, 0] S200x10000.size inb_S200x10000_S200x10000_0_0

/-- What the body leaves in the output window's staging buffer: its one store, of the decode's value on the loaded row
    block and the loaded whole embedding. -/
def out2 (z : Vec F S200x64 .f32) (zz : Vec F S10000x64 .f32) : Vec F S200x10000 .f32 :=
  View.canon [⟨ro2, k2_pay1 (View.ld z rz2) (View.ld zz rZ2)⟩]

/-- The one store covers the whole staging buffer. -/
theorem cover2 (p0 : Vec F S200x10000 .f32) (y : S200x10000.Idx) :
    ∃ pc ∈ ([⟨ro2, p0⟩] : List (View.Piece (Elt F) S200x10000 .f32)), y ∈ pc.1.set :=
  View.cover_of_tiled [⟨ro2, p0⟩] S200x10000.size (by rfl) y

set_option maxHeartbeats 1000000 in
/-- The body, run on whole staging buffers holding `z`, `zz` and anything in the output's: it returns them with the
    inputs' as they were and the output's at `out2 z zz`. -/
theorem sound_kernel2 (c : Dev nD) (E : Set ℕ) (i : grid2.Coords)
    (a0 : Memref sig .tc .vmem S200x64 .f32) (h0 : a0.IsWhole) (a1 : Memref sig .tc .vmem S10000x64 .f32) (h1 : a1.IsWhole)
    (a2 : Memref sig .tc .vmem S200x10000 .f32) (h2 : a2.IsWhole)
    (z : Vec F S200x64 .f32) (zz : Vec F S10000x64 .f32) (K : PUnit → sProp 𝕄) :
    iprop(owns (c : Thread nD τ) a0 fullShare z ∗ owns (c : Thread nD τ) a1 fullShare zz
        ∗ (∃ d, owns (c : Thread nD τ) a2 fullShare d)
        ∗ (iprop(owns (c : Thread nD τ) a0 fullShare z ∗ owns (c : Thread nD τ) a1 fullShare zz
            ∗ owns (c : Thread nD τ) a2 fullShare (out2 z zz)) -∗ K ⟨⟩))
      ⊢ wp frame (wpE (defs₀ (F := F)) Variants.none c none) E (cc2__zzt_kernel i a0 h0 a1 h1 a2 h2) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The region's proof data on core `c`: the arrays as the region finds them; after the body at a point each input's
    staging buffer still at its block, the output's at `out2` of the two input blocks; the scoped buffers that are no
    staging buffer and the generator register untouched; nothing owed; the embedding's array read by window 0 at the
    left half of the full share and by window 1 at the right half. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) :
    (dat2 V c).after 2 t = out2 (blk2 V c 0 t) (blk2 V c 1 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Share2.lean ====
import proofs.«118749_j50208167690259_1_alg».proof.Proof.Gen.KernelIdeal.Launch
import proofs.«118749_j50208167690259_1_alg».proof.Proof.Gen.KernelIdeal.Skeleton
import proofs.«118749_j50208167690259_1_alg».proof.Proof.Gen.KernelIdeal.Points
import proofs.«118749_j50208167690259_1_alg».proof.Proof.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2's arrays: one buffer behind two windows

The decode hands the embedding's array to both of its input windows. Behind the three windows' arrays there are two
buffers, the embedding's and the result's; the embedding's full share is dealt to window 0 as the left half and to
window 1 as the right half, and put together again at the region's exit. -/

/-- The buffers behind the three windows' arrays are the embedding's and the result's. -/
theorem arrImage2 : (Finset.univ.image (Pipeline.arrRef spec2) : Finset (Ref sig .tc)) = {main_v59, main_v60} := by decide

set_option maxHeartbeats 4000000 in
/-- The two buffers, each whole at the full share at contents `G`, are the three windows' arrays at the contents `G` gives
    their buffers, for proof data that reads the embedding at the two halves of the full share — and back. -/
theorem arrBufs2_iff {c : Dev nD} (dat : Dat τ (Elt F) Unit ℕ (UR sig nD τ) ℕ cfg2 c)
    (hq0 : dat.share 0 = fullShare.left) (hq1 : dat.share 1 = fullShare.right) (hq2 : dat.share 2 = fullShare)
    (G : (b : Ref sig .tc) → Buf (Elt F) ((c : Thread nD τ).loc b)) :
    (Pipeline.arrBufs spec2 c G : sProp 𝕄) ⊣⊢ dat.arrays fun w => G (Pipeline.arrRef spec2 w) := by
  have h0 : (cfg2.win 0).arr.view.set = Finset.univ := (arr_whole2 0).set_eq_univ
  have h2 : (cfg2.win 2).arr.view.set = Finset.univ := (arr_whole2 2).set_eq_univ
  unfold Pipeline.arrBufs Dat.arrays
  rw [arrImage2, bigSep_W2, bigSep_insert (by decide : main_v59 ∉ ({main_v60} : Finset (Ref sig .tc))), bigSep_singleton,
    h0, h2, hq0, hq1, hq2]
  show iprop((((c : Thread nD τ).loc main_v59) ↦{fullShare} G main_v59) ∗ (((c : Thread nD τ).loc main_v60) ↦{fullShare} G main_v60))
    ⊣⊢ iprop((((c : Thread nD τ).loc main_v59) ↦{fullShare.left} G main_v59) ∗ (((c : Thread nD τ).loc main_v59) ↦{fullShare.right} G main_v59)
      ∗ (((c : Thread nD τ).loc main_v60) ↦{fullShare} G main_v60))
  refine ⟨?_, ?_⟩
  · iintro ⟨H59, H60⟩
    ihave H := (pointsTo_share (PosShare.mem_left_op_right fullShare)).1 $$ H59
    icases H with ⟨Hl, Hr⟩
    isplitl [Hl]; · iexact Hl
    isplitl [Hr]; · iexact Hr
    iexact H60
  · iintro ⟨Hl, Hr, H60⟩
    isplitl [Hl Hr]
    · iapply (pointsTo_share (PosShare.mem_left_op_right fullShare)).2
      isplitl [Hl]; · iexact Hl
      iexact Hr
    iexact H60

/-- ENTRY: the core's unscoped buffers at contents `G` are region 2's arrays at their entry contents and the rest. -/
theorem arrays2_of_unscopedBufs {c : Dev nD} (dat : Dat τ (Elt F) Unit ℕ (UR sig nD τ) ℕ cfg2 c)
    (hq0 : dat.share 0 = fullShare.left) (hq1 : dat.share 1 = fullShare.right) (hq2 : dat.share 2 = fullShare)
    (G : (b : Ref sig .tc) → Buf (Elt F) ((c : Thread nD τ).loc b)) (hA : ∀ w, dat.A w = G (Pipeline.arrRef spec2 w)) :
    (unscopedBufs c G : sProp 𝕄) ⊢ iprop(dat.arrays (dat.arrAt · 0) ∗ Pipeline.unscopedRest spec2 c G) := by
  rw [Pipeline.unscopedBufs_split₀ cfgs 2 winFacts₀2.arr_unscoped c G,
    show (dat.arrAt · 0) = fun w => G (Pipeline.arrRef spec2 w) from funext fun w => (show dat.arrAt w 0 = dat.A w from rfl).trans (hA w)]
  exact sep_mono (arrBufs2_iff dat hq0 hq1 hq2 G).1 .rfl

/-- EXIT: region 2's arrays at contents `F` and the rest at `G` are the core's unscoped buffers at any contents `G'` that
    has the arrays' buffers at `F` and agrees with `G` off them. -/
theorem unscopedBufs_of_arrays2 {c : Dev nD} (dat : Dat τ (Elt F) Unit ℕ (UR sig nD τ) ℕ cfg2 c)
    (hq0 : dat.share 0 = fullShare.left) (hq1 : dat.share 1 = fullShare.right) (hq2 : dat.share 2 = fullShare)
    (G G' : (b : Ref sig .tc) → Buf (Elt F) ((c : Thread nD τ).loc b))
    (Fa : (w : Fin cfg2.W) → Buf (Elt F) ((cfg2.win w).arr.view.loc (c : Thread nD τ)))
    (hF : ∀ w, Fa w = G' (Pipeline.arrRef spec2 w))
    (hrest : ∀ b, b ∉ Finset.univ.image (Pipeline.arrRef spec2) → G' b = G b) :
    iprop(dat.arrays Fa ∗ Pipeline.unscopedRest spec2 c G) ⊢ (unscopedBufs c G' : sProp 𝕄) := by
  rw [Pipeline.unscopedBufs_split₀ cfgs 2 winFacts₀2.arr_unscoped c G',
    show Fa = fun w => G' (Pipeline.arrRef spec2 w) from funext hF]
  refine sep_mono (arrBufs2_iff dat hq0 hq1 hq2 G').2 (Entails.of_eq ?_)
  unfold Pipeline.unscopedRest
  exact bigSep_congr fun b hb => by rw [hrest b (Finset.mem_sdiff.mp hb).2]

end Cert.KernelIdeal.Hand

end
-- ==== Proof.KitRun.lean ====
import proofs.«118749_j50208167690259_1_alg».proof.Proof.Gen.KernelIdeal.Launch
import proofs.«118749_j50208167690259_1_alg».proof.Proof.Gen.KernelIdeal.Skeleton
import proofs.«118749_j50208167690259_1_alg».proof.Proof.Gen.KernelIdeal.Points
import proofs.«118749_j50208167690259_1_alg».proof.Proof.R0
import proofs.«118749_j50208167690259_1_alg».proof.Proof.R1
import proofs.«118749_j50208167690259_1_alg».proof.Proof.Share2
import proofs.«118749_j50208167690259_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: three host stretches, the first layer, a host stretch, the second layer, the decode

The buffer contents at each boundary between two items of @main are a fold from the launch memory: a host stretch
applies its operations, a region replaces its output array by what its pipeline's write-backs leave. Each region is a
segment of the pipeline library's run of several regions; the run's post reads the result array and the arguments off
the last boundary's contents. -/

variable (m : (ℓ : Loc nD τ sig) → Buf (Elt F) ℓ)

/-- Core `c`'s unscoped buffers at launch, -/
abbrev U0 : Dev nD → Valuation τ sig (Elt F) := fun c b => m (c, b)
/-- after the first host stretch (the edge lists with the self-loops, the degrees), -/
abbrev U1 : Dev nD → Valuation τ sig (Elt F) := fun c => StableHlo.after hostOps0 (U0 m c)
/-- after the second (the select that guards the inverse square roots of the degrees), -/
abbrev U2 : Dev nD → Valuation τ sig (Elt F) := fun c => StableHlo.after hostOps0_1 (U1 m c)
/-- and after the third (the edge weights, the first gather, scale and scatter-add): the first layer's entry. -/
abbrev U3 : Dev nD → Valuation τ sig (Elt F) := fun c => StableHlo.after hostOps0_2 (U2 m c)
abbrev A3 : (c : Dev nD) → (b : Ref sig .tc) → Buf (Elt F) ((c : Thread nD τ).loc b) := fun c b => U3 m c b

/-- What region 0 leaves in its output array: the pipeline's write-backs folded over the array as the region found it. -/
def o0 (c : Dev nD) : Buf (Elt F) ((c : Thread nD τ).loc main_v45) := (dat0 (A3 m) c).arrAt 3 cfg0.N
/-- Core `c`'s unscoped buffers after region 0: as before it, but for the output array. -/
def U0x (c : Dev nD) : Valuation τ sig (Elt F) := Function.update (U3 m c) main_v45 (o0 m c)
theorem U0x_self (c : Dev nD) : U0x m c (Proc.devRef .tc main_v45) = o0 m c := by
  unfold U0x; exact Function.update_self ..
theorem U0x_of_ne (c : Dev nD) (b : Ref sig .tc) (h : b ≠ main_v45) :
    U0x m c (Proc.devRef .tc b) = U3 m c (Proc.devRef .tc b) := by
  unfold U0x; exact Function.update_of_ne (StableHlo.devRef_ne_of_ne h) ..
/-- The same read at the TensorCore's references. -/
abbrev A0x : (c : Dev nD) → (b : Ref sig .tc) → Buf (Elt F) ((c : Thread nD τ).loc b) := fun c b => U0x m c b

/-- After the host stretch between the two layers (the second gather, scale and scatter-add): the second layer's entry. -/
abbrev U5 : Dev nD → Valuation τ sig (Elt F) := fun c => StableHlo.after hostOps1 (U0x m c)
abbrev A5 : (c : Dev nD) → (b : Ref sig .tc) → Buf (Elt F) ((c : Thread nD τ).loc b) := fun c b => U5 m c b

/-- What region 1 leaves in its output array: the pipeline's write-backs folded over the array as the region found it. -/
def o1 (c : Dev nD) : Buf (Elt F) ((c : Thread nD τ).loc main_v59) := (dat1 (A5 m) c).arrAt 3 cfg1.N
/-- Core `c`'s unscoped buffers after region 1: as before it, but for the output array. -/
def U1x (c : Dev nD) : Valuation τ sig (Elt F) := Function.update (U5 m c) main_v59 (o1 m c)
theorem U1x_self (c : Dev nD) : U1x m c (Proc.devRef .tc main_v59) = o1 m c := by
  unfold U1x; exact Function.update_self ..
theorem U1x_of_ne (c : Dev nD) (b : Ref sig .tc) (h : b ≠ main_v59) :
    U1x m c (Proc.devRef .tc b) = U5 m c (Proc.devRef .tc b) := by
  unfold U1x; exact Function.update_of_ne (StableHlo.devRef_ne_of_ne h) ..
/-- The same read at the TensorCore's references. -/
abbrev A1x : (c : Dev nD) → (b : Ref sig .tc) → Buf (Elt F) ((c : Thread nD τ).loc b) := fun c b => U1x m c b

/-- What region 2 leaves in its output array: the pipeline's write-backs folded over the array as the region found it. -/
def o2 (c : Dev nD) : Buf (Elt F) ((c : Thread nD τ).loc main_v60) := (dat2 (A1x m) c).arrAt 2 cfg2.N
/-- Core `c`'s unscoped buffers after region 2: as before it, but for the output array. -/
def U2x (c : Dev nD) : Valuation τ sig (Elt F) := Function.update (U1x m c) main_v60 (o2 m c)
theorem U2x_self (c : Dev nD) : U2x m c (Proc.devRef .tc main_v60) = o2 m c := by
  unfold U2x; exact Function.update_self ..
theorem U2x_of_ne (c : Dev nD) (b : Ref sig .tc) (h : b ≠ main_v60) :
    U2x m c (Proc.devRef .tc b) = U1x m c (Proc.devRef .tc b) := by
  unfold U2x; exact Function.update_of_ne (StableHlo.devRef_ne_of_ne h) ..
/-- The same read at the TensorCore's references. -/
abbrev A2x : (c : Dev nD) → (b : Ref sig .tc) → Buf (Elt F) ((c : Thread nD τ).loc b) := fun c b => U2x m c b

/-! ## At a region's exit each of its arrays holds what the pipeline leaves, every other buffer what it held -/

theorem hF0 (c : Dev nD) (w : Fin cfg0.W) : (dat0 (A3 m) c).arrAt w cfg0.N = A0x m c (Pipeline.arrRef spec0 w) :=
  match w with
  | ⟨0, _⟩ => (((dat0 (A3 m) c).arrAt_in 0 rfl _).trans (A_eq0 (A3 m) c 0)).trans (U0x_of_ne m c main_v44 (by decide)).symm
  | ⟨1, _⟩ => (((dat0 (A3 m) c).arrAt_in 1 rfl _).trans (A_eq0 (A3 m) c 1)).trans (U0x_of_ne m c main_arg2 (by decide)).symm
  | ⟨2, _⟩ => (((dat0 (A3 m) c).arrAt_in 2 rfl _).trans (A_eq0 (A3 m) c 2)).trans (U0x_of_ne m c main_arg3 (by decide)).symm
  | ⟨3, _⟩ => (U0x_self m c).symm
theorem hrest0 (c : Dev nD) : ∀ b, b ∉ Finset.univ.image (Pipeline.arrRef spec0) → A0x m c b = A3 m c b :=
  fun b hb => U0x_of_ne m c b fun e => hb (Finset.mem_image.mpr ⟨3, Finset.mem_univ _, e.symm⟩)

theorem hF1 (c : Dev nD) (w : Fin cfg1.W) : (dat1 (A5 m) c).arrAt w cfg1.N = A1x m c (Pipeline.arrRef spec1 w) :=
  match w with
  | ⟨0, _⟩ => (((dat1 (A5 m) c).arrAt_in 0 rfl _).trans (A_eq1 (A5 m) c 0)).trans (U1x_of_ne m c main_v58 (by decide)).symm
  | ⟨1, _⟩ => (((dat1 (A5 m) c).arrAt_in 1 rfl _).trans (A_eq1 (A5 m) c 1)).trans (U1x_of_ne m c main_arg4 (by decide)).symm
  | ⟨2, _⟩ => (((dat1 (A5 m) c).arrAt_in 2 rfl _).trans (A_eq1 (A5 m) c 2)).trans (U1x_of_ne m c main_arg5 (by decide)).symm
  | ⟨3, _⟩ => (U1x_self m c).symm
theorem hrest1 (c : Dev nD) : ∀ b, b ∉ Finset.univ.image (Pipeline.arrRef spec1) → A1x m c b = A5 m c b :=
  fun b hb => U1x_of_ne m c b fun e => hb (Finset.mem_image.mpr ⟨3, Finset.mem_univ _, e.symm⟩)

theorem hF2 (c : Dev nD) (w : Fin cfg2.W) : (dat2 (A1x m) c).arrAt w cfg2.N = A2x m c (Pipeline.arrRef spec2 w) :=
  match w with
  | ⟨0, _⟩ => (((dat2 (A1x m) c).arrAt_in 0 rfl _).trans (A_eq2 (A1x m) c 0)).trans (U2x_of_ne m c main_v59 (by decide)).symm
  | ⟨1, _⟩ => (((dat2 (A1x m) c).arrAt_in 1 rfl _).trans (A_eq2 (A1x m) c 1)).trans (U2x_of_ne m c main_v59 (by decide)).symm
  | ⟨2, _⟩ => (U2x_self m c).symm
theorem hrest2 (c : Dev nD) : ∀ b, b ∉ Finset.univ.image (Pipeline.arrRef spec2) → A2x m c b = A1x m c b :=
  fun b hb => U2x_of_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (A3 m) c
  | ⟨1, _⟩ => fun c => dat1 (A5 m) c
  | ⟨2, _⟩ => fun c => dat2 (A1x m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (U2x m c) ∗ ∃ r, prngReg c r)

/-! ## The regions as segments -/

-- the library's lemmas are stated over the pinned configuration, which unifies with the printed one only when
-- unification may unfold plain definitions in a metavariable's type
set_option backward.isDefEq.respectTransparency.types false in
/-- Region 0 as a segment of @main: entered with every unscoped buffer at `U3`, left with them at the same contents
    but for the layer's output array, which holds what the pipeline's write-backs leave. The region's arrays are split
    out of the unscoped buffers at entry and put back at exit; the generator register rides in the invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (A3 m) c).loose
  hwaits := Pipeline.hwaits_of_owed_zero _ _ _ _ L lv 0 fun _ _ => rfl
  pre c := iprop(StableHlo.held (c : Thread nD τ) (Pipeline.ucRefs τ sig) (U3 m c) ∗ R c)
  post c := iprop(StableHlo.held (c : Thread nD τ) (Pipeline.ucRefs τ sig) (U0x m c) ∗ R c)
  X c := iprop(∃ r, prngReg c r)
  Y c := iprop(∃ r, prngReg c r)
  Z c := Pipeline.unscopedRest (Ix := Unit) (Name := ℕ) (U := UR sig nD τ) (Lvl := ℕ) spec0 c (A3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (A3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (A3 m c) (A0x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- Region 1 as a segment of @main: entered with every unscoped buffer at `U5`, left with them at the same contents
    but for the layer's output array, which holds what the pipeline's write-backs leave. The region's arrays are split
    out of the unscoped buffers at entry and put back at exit; the generator register rides in the invariant. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A5 m) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U1x m c) ∗ R c)
  X c := iprop(∃ r, prngReg c r)
  Y c := iprop(∃ r, prngReg c r)
  Z c := Pipeline.unscopedRest (Ix := Unit) (Name := ℕ) (U := UR sig nD τ) (Lvl := ℕ) spec1 c (A5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (A5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (A5 m c) (A1x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem share2_0 (c : Dev nD) : (pdats m 2 c).share 0 = fullShare.left := rfl
theorem share2_1 (c : Dev nD) : (pdats m 2 c).share 1 = fullShare.right := rfl
theorem share2_2 (c : Dev nD) : (pdats m 2 c).share 2 = fullShare := rfl

set_option backward.isDefEq.respectTransparency.types false in
/-- The decode as a segment of @main: entered with every unscoped buffer at `U1x`, left with them at the same contents but
    for the result array. Its two input windows read one array: the embedding's buffer is dealt to them in two halves at
    entry and put together at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (A1x m) c).loose
  hwaits := Pipeline.hwaits_of_owed_zero _ _ _ _ L lv 2 fun _ _ => rfl
  pre c := iprop(StableHlo.held (c : Thread nD τ) (Pipeline.ucRefs τ sig) (U1x m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (A1x m c)
  hentry c := by
    rw [Pipeline.ownSems0_none]
    have hsplit := arrays2_of_unscopedBufs (pdats m 2 c) (share2_0 m c) (share2_1 m c) (share2_2 m c) (A1x m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (pdats m 2 c) (share2_0 m c) (share2_1 m c) (share2_2 m c)
      (A1x m c) (A2x m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order: a host segment per stretch from its boundary's contents, a region per pallas_call. -/
abbrev segs : List (Pipeline.Seg (pcfgs (F := F)) adm (pdats m) () defs₀ 𝒱₀ L lv) :=
  [ .host (hseg hostOps0 hostOps0_sub hostOps0_fresh (U0 m)),
    .host (hseg hostOps0_1 hostOps0_1_sub hostOps0_1_fresh (U1 m)),
    .host (hseg hostOps0_2 hostOps0_2_sub hostOps0_2_fresh (U2 m)),
    .region (reg0 m),
    .host (hseg hostOps1 hostOps1_sub hostOps1_fresh (U0x m)),
    .region (reg1 m),
    .region (reg2 m) ]

/-- No host stretch writes an argument, and no region's output array is one: an argument's buffer at the last boundary
    holds its launch contents. -/
theorem U2x_arg (c : Dev nD) (r : Ref sig .tc) (h0 : r ∉ hostOps0_W) (h1 : r ∉ hostOps0_1_W) (h2 : r ∉ hostOps0_2_W) (h3 : r ∉ hostOps1_W)
    (n0 : r ≠ main_v45) (n1 : r ≠ main_v59) (n2 : r ≠ main_v60) :
    U2x m c (Proc.devRef .tc r) = m ((c : Thread nD τ).loc r) :=
  (U2x_of_ne m c r n2).trans <| (U1x_of_ne m c r n1).trans <|
    (StableHlo.after_of_writes_sub hostOps1 _ hostOps1_writes h3).trans <| (U0x_of_ne m c r n0).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

variable (ρ : Dev nD → PrngReg)

set_option backward.isDefEq.respectTransparency.types false in
/-- THE RUN, at any float instance: from any memory with zero counters every weakly fair execution of @main terminates,
    nothing faulting; the result array ends at what the decode's write-backs leave (`o2`), every argument as launched. -/
theorem run_main : θ_run defs (onTc (τ := τ) (main (F := F))) ⟨m, fun _ => 0, ρ⟩ (fun r => ∀ c : Dev nD,
      r.2.mem ((c.tc : Thread nD τ).loc main_v60) = o2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U2x m c b)
    (hfin := fun c s' => by
      iintro ⟨⟨Hh, -⟩, HSI⟩
      unfold StableHlo.held
      imodintro
      iapply (pointsTo_read_all (Pipeline.ucRefs τ sig) (fun b => (((c : Thread nD τ)).1, b)) (U2x m c) s')
      isplitl [Hh] <;> iassumption)
    (hQ := fun s h c =>
      ⟨(h c _ (mem_uc main_v60 (by decide))).trans (U2x_self m c),
       (h c _ (mem_uc main_arg0 (by decide))).trans (U2x_arg m c main_arg0 (by decide) (by decide) (by decide) (by decide) (by decide) (by decide) (by decide)),
       (h c _ (mem_uc main_arg1 (by decide))).trans (U2x_arg m c main_arg1 (by decide) (by decide) (by decide) (by decide) (by decide) (by decide) (by decide)),
       (h c _ (mem_uc main_arg2 (by decide))).trans (U2x_arg m c main_arg2 (by decide) (by decide) (by decide) (by decide) (by decide) (by decide) (by decide)),
       (h c _ (mem_uc main_arg3 (by decide))).trans (U2x_arg m c main_arg3 (by decide) (by decide) (by decide) (by decide) (by decide) (by decide) (by decide)),
       (h c _ (mem_uc main_arg4 (by decide))).trans (U2x_arg m c main_arg4 (by decide) (by decide) (by decide) (by decide) (by decide) (by decide) (by decide)),
       (h c _ (mem_uc main_arg5 (by decide))).trans (U2x_arg m c main_arg5 (by decide) (by decide) (by decide) (by decide) (by decide) (by decide) (by decide))⟩)

end Cert.KernelIdeal.Hand

end
-- ==== Proof.Spec.lean ====
/-
  The three computations the kernel's pallas_calls and the reference's matrix products both denote, as functions of
  whole arrays over the extended reals: a dense layer (a row of the input against a column of the weights, summed over
  the shared axis, plus the bias entry of the column) at the two layer sizes, and the inner-product decode (the
  logistic function of the inner product of two rows of the embedding).
-/
import proofs.«118749_j50208167690259_1_alg».proof.KernelIdeal
import Idealize.ShloMosaic.Lib.ValueIdx
import Idealize.ShloMosaic.PureOps.Ideal

noncomputable section

namespace Cert.Hand

open Idealize.ShloMosaic Idealize.ShloMosaic.ValueIdx Cert.KernelIdeal

/-- Entry `(r, c)` of the first layer: `∑ k, x (r, k) * w (k, c) + b c`. -/
def lin1At (x : FVec Ideal S10000x512 .f32) (w : FVec Ideal S512x256 .f32) (b : FVec Ideal S256 .f32)
    (r : Fin 10000) (c : Fin 256) : EReal :=
  (∑ k : Fin 512, x (ix2 r k) * w (ix2 k c)) + b (ix1 c)

/-- The first layer on whole arrays. -/
def lin1G (x : FVec Ideal S10000x512 .f32) (w : FVec Ideal S512x256 .f32) (b : FVec Ideal S256 .f32) :
    FVec Ideal S10000x256 .f32 := fun i => lin1At x w b (i 0) (i 1)

theorem lin1G_ix2 (x : FVec Ideal S10000x512 .f32) (w : FVec Ideal S512x256 .f32) (b : FVec Ideal S256 .f32)
    (r : Fin 10000) (c : Fin 256) : lin1G x w b (ix2 r c) = lin1At x w b r c := rfl

/-- Entry `(r, c)` of the second layer: `∑ k, x (r, k) * w (k, c) + b c`. -/
def lin2At (x : FVec Ideal S10000x256 .f32) (w : FVec Ideal S256x64 .f32) (b : FVec Ideal S64 .f32)
    (r : Fin 10000) (c : Fin 64) : EReal :=
  (∑ k : Fin 256, x (ix2 r k) * w (ix2 k c)) + b (ix1 c)

/-- The second layer on whole arrays. -/
def lin2G (x : FVec Ideal S10000x256 .f32) (w : FVec Ideal S256x64 .f32) (b : FVec Ideal S64 .f32) :
    FVec Ideal S10000x64 .f32 := fun i => lin2At x w b (i 0) (i 1)

theorem lin2G_ix2 (x : FVec Ideal S10000x256 .f32) (w : FVec Ideal S256x64 .f32) (b : FVec Ideal S64 .f32)
    (r : Fin 10000) (c : Fin 64) : lin2G x w b (ix2 r c) = lin2At x w b r c := rfl

/-- Entry `(r, c)` of the decode: the logistic function of the inner product of rows `r` and `c` of the embedding. -/
def decAt (z : FVec Ideal S10000x64 .f32) (r c : Fin 10000) : EReal :=
  Ideal.logistic (∑ k : Fin 64, z (ix2 r k) * z (ix2 c k))

/-- The decode on the whole embedding. -/
def decG (z : FVec Ideal S10000x64 .f32) : FVec Ideal S10000x10000 .f32 := fun i => decAt z (i 0) (i 1)

theorem decG_ix2 (z : FVec Ideal S10000x64 .f32) (r c : Fin 10000) : decG z (ix2 r c) = decAt z r c := rfl

end Cert.Hand

end
-- ==== Proof.KerPay.lean ====
/-
  The three bodies' stored values at an index, over the extended reals: a dense layer's block is, entry by entry, the
  row of the input block against the column of the weight matrix, summed over the shared axis, plus the bias entry of
  the column; the decode's block is the logistic function of the inner product of a row of the row block with a row of
  the whole embedding. Rounding to the narrower format is the identity on the extended reals, and the matrix product
  into the zero accumulator is the plain sum.
-/
import proofs.«118749_j50208167690259_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.ValueIdx

/-- The first layer's product reads, at output entry `(r, c)` and position `k` of the shared axis, entry `(r, k)` of
    its left operand … -/
theorem lhsIdx0 (r : Fin 1000) (c : Fin 256) (k : Fin 512) :
    dot_S1000x512_S512x256_S1000x256_1_0_0_1_n_n.lhsIdx (ix2 r c) ((contrEquiv1 dot_S1000x512_S512x256_S1000x256_1_0_0_1_n_n 512 rfl rfl).symm k) = ix2 r k := by
  funext a; apply Fin.ext
  match a with
  | ⟨0, _⟩ => rfl
  | ⟨1, _⟩ =>
    exact (dot_S1000x512_S512x256_S1000x256_1_0_0_1_n_n.lhsIdx_val_of_single (cl := 1) rfl _ _).trans (contrEquiv1_symm_val dot_S1000x512_S512x256_S1000x256_1_0_0_1_n_n 512 rfl rfl k)

/-- … and entry `(k, c)` of its right operand. -/
theorem rhsIdx0 (r : Fin 1000) (c : Fin 256) (k : Fin 512) :
    dot_S1000x512_S512x256_S1000x256_1_0_0_1_n_n.rhsIdx (ix2 r c) ((contrEquiv1 dot_S1000x512_S512x256_S1000x256_1_0_0_1_n_n 512 rfl rfl).symm k) = ix2 k c := by
  funext a; apply Fin.ext
  match a with
  | ⟨0, _⟩ =>
    exact (dot_S1000x512_S512x256_S1000x256_1_0_0_1_n_n.rhsIdx_val_of_single (cr := 0) rfl _ _).trans (contrEquiv1_symm_val dot_S1000x512_S512x256_S1000x256_1_0_0_1_n_n 512 rfl rfl k)
  | ⟨1, _⟩ => rfl

/-- Entry `(r, c)` of the first layer's stored block: `∑ k, x (r, k) * w (k, c) + b c`. -/
theorem k0_pay1_ix2 (x : Vec Ideal S1000x512 .f32) (w : Vec Ideal S512x256 .f32) (b : Vec Ideal S256 .f32)
    (r : Fin 1000) (c : Fin 256) :
    k0_pay1 (F := Ideal) x w b (ix2 r c) = (∑ k : Fin 512, x (ix2 r k) * w (ix2 k c)) + b (ix1 c) := by
  unfold k0_pay1
  simp only [addf_apply]
  rw [broadcastTo_1b_ab_apply, shapeCast_a_1a_apply]
  congr 1
  simp only [matmul]
  rw [Ideal.matmul_constant_zero_apply,
    ← Equiv.sum_comp (contrEquiv1 dot_S1000x512_S512x256_S1000x256_1_0_0_1_n_n 512 rfl rfl).symm]
  refine Finset.sum_congr rfl fun k _ => ?_
  rw [truncf_apply, truncf_apply, shapeCast_self, lhsIdx0, rhsIdx0]

/-- The second layer's product reads, at output entry `(r, c)` and position `k` of the shared axis, entry `(r, k)` of
    its left operand … -/
theorem lhsIdx1 (r : Fin 1000) (c : Fin 64) (k : Fin 256) :
    dot_S1000x256_S256x64_S1000x64_1_0_0_1_n_n.lhsIdx (ix2 r c) ((contrEquiv1 dot_S1000x256_S256x64_S1000x64_1_0_0_1_n_n 256 rfl rfl).symm k) = ix2 r k := by
  funext a; apply Fin.ext
  match a with
  | ⟨0, _⟩ => rfl
  | ⟨1, _⟩ =>
    exact (dot_S1000x256_S256x64_S1000x64_1_0_0_1_n_n.lhsIdx_val_of_single (cl := 1) rfl _ _).trans (contrEquiv1_symm_val dot_S1000x256_S256x64_S1000x64_1_0_0_1_n_n 256 rfl rfl k)

/-- … and entry `(k, c)` of its right operand. -/
theorem rhsIdx1 (r : Fin 1000) (c : Fin 64) (k : Fin 256) :
    dot_S1000x256_S256x64_S1000x64_1_0_0_1_n_n.rhsIdx (ix2 r c) ((contrEquiv1 dot_S1000x256_S256x64_S1000x64_1_0_0_1_n_n 256 rfl rfl).symm k) = ix2 k c := by
  funext a; apply Fin.ext
  match a with
  | ⟨0, _⟩ =>
    exact (dot_S1000x256_S256x64_S1000x64_1_0_0_1_n_n.rhsIdx_val_of_single (cr := 0) rfl _ _).trans (contrEquiv1_symm_val dot_S1000x256_S256x64_S1000x64_1_0_0_1_n_n 256 rfl rfl k)
  | ⟨1, _⟩ => rfl

/-- Entry `(r, c)` of the second layer's stored block: `∑ k, x (r, k) * w (k, c) + b c`. -/
theorem k1_pay1_ix2 (x : Vec Ideal S1000x256 .f32) (w : Vec Ideal S256x64 .f32) (b : Vec Ideal S64 .f32)
    (r : Fin 1000) (c : Fin 64) :
    k1_pay1 (F := Ideal) x w b (ix2 r c) = (∑ k : Fin 256, x (ix2 r k) * w (ix2 k c)) + b (ix1 c) := by
  unfold k1_pay1
  simp only [addf_apply]
  rw [broadcastTo_1b_ab_apply, shapeCast_a_1a_apply]
  congr 1
  simp only [matmul]
  rw [Ideal.matmul_constant_zero_apply,
    ← Equiv.sum_comp (contrEquiv1 dot_S1000x256_S256x64_S1000x64_1_0_0_1_n_n 256 rfl rfl).symm]
  refine Finset.sum_congr rfl fun k _ => ?_
  rw [truncf_apply, truncf_apply, shapeCast_self, lhsIdx1, rhsIdx1]

/-- The decode's product contracts the second axis of both operands: at output entry `(r, c)` and position `k` it
    reads entry `(r, k)` of the row block … -/
theorem lhsIdx2 (r : Fin 200) (c : Fin 10000) (k : Fin 64) :
    dot_S200x64_S10000x64_S200x10000_1_1_0_0_n_n.lhsIdx (ix2 r c) ((contrEquiv1 dot_S200x64_S10000x64_S200x10000_1_1_0_0_n_n 64 rfl rfl).symm k) = ix2 r k := by
  funext a; apply Fin.ext
  match a with
  | ⟨0, _⟩ => rfl
  | ⟨1, _⟩ =>
    exact (dot_S200x64_S10000x64_S200x10000_1_1_0_0_n_n.lhsIdx_val_of_single (cl := 1) rfl _ _).trans (contrEquiv1_symm_val dot_S200x64_S10000x64_S200x10000_1_1_0_0_n_n 64 rfl rfl k)

/-- … and entry `(c, k)` of the whole embedding. -/
theorem rhsIdx2 (r : Fin 200) (c : Fin 10000) (k : Fin 64) :
    dot_S200x64_S10000x64_S200x10000_1_1_0_0_n_n.rhsIdx (ix2 r c) ((contrEquiv1 dot_S200x64_S10000x64_S200x10000_1_1_0_0_n_n 64 rfl rfl).symm k) = ix2 c k := by
  funext a; apply Fin.ext
  match a with
  | ⟨0, _⟩ => rfl
  | ⟨1, _⟩ =>
    exact (dot_S200x64_S10000x64_S200x10000_1_1_0_0_n_n.rhsIdx_val_of_single (cr := 1) rfl _ _).trans (contrEquiv1_symm_val dot_S200x64_S10000x64_S200x10000_1_1_0_0_n_n 64 rfl rfl k)

/-- Entry `(r, c)` of the decode's stored block: the logistic function of `∑ k, z (r, k) * zz (c, k)`. -/
theorem k2_pay1_ix2 (z : Vec Ideal S200x64 .f32) (zz : Vec Ideal S10000x64 .f32) (r : Fin 200) (c : Fin 10000) :
    k2_pay1 (F := Ideal) z zz (ix2 r c) = Ideal.logistic (∑ k : Fin 64, z (ix2 r k) * zz (ix2 c k)) := by
  unfold k2_pay1
  show FloatOps.logistic _ = _
  rw [Ideal.logistic_def]
  congr 1
  simp only [matmul]
  rw [Ideal.matmul_constant_zero_apply,
    ← Equiv.sum_comp (contrEquiv1 dot_S200x64_S10000x64_S200x10000_1_1_0_0_n_n 64 rfl rfl).symm]
  refine Finset.sum_congr rfl fun k _ => ?_
  rw [truncf_apply, truncf_apply, shapeCast_self, shapeCast_self, lhsIdx2, rhsIdx2]

end Cert.KernelIdeal.Hand

end
-- ==== Proof.KerVal0.lean ====
/-
  The first dense layer's output array after its region. The region walks ten row blocks of a thousand rows; at block
  `t` the body sees rows `1000 t … 1000 t + 999` of the input, the whole weight matrix and the whole bias, and leaves
  the layer's value on them, which is written back to rows `1000 t … 1000 t + 999` of the output. Entry by entry that
  is the layer of the whole arrays, and the ten row blocks tile the output: the array ends as the layer of the arrays
  the region found.
-/
import proofs.«118749_j50208167690259_1_alg».proof.Proof.R0
import proofs.«118749_j50208167690259_1_alg».proof.Proof.Spec
import proofs.«118749_j50208167690259_1_alg».proof.Proof.KerPay
import Idealize.ShloMosaic.Lib.ValueIdx
import Idealize.ShloMosaic.Lib.ValueLayout
import Idealize.ShloMosaic.Lib.Pipeline.Value
import Idealize.ShloMosaic.Lib.Pipeline.Dat
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- The printed index maps, decided over the grid: at point `t` the input's and the output's row block is block `t`
    (column block 0); the weight matrix and the bias are their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- A row block of the layer: when `x` is rows `1000 n …` of `X`, and `w`, `b` are all of `W`, `B`, the body's value
    at `(r, cc)` is the layer of the whole arrays at row `1000 n + r`, column `cc`. -/
theorem lin1_rows (X : FVec Ideal S10000x512 .f32) (W : FVec Ideal S512x256 .f32) (B : FVec Ideal S256 .f32) (n : ℕ)
    (x : Vec Ideal S1000x512 .f32) (w : Vec Ideal S512x256 .f32) (b : Vec Ideal S256 .f32)
    (hx : ∀ (r : Fin 1000) (k : Fin 512) (i : S10000x512.Idx), (i 0).val = n * 1000 + r.val → (i 1).val = k.val → x (ix2 r k) = X i)
    (hw : ∀ (k : Fin 512) (cc : Fin 256), w (ix2 k cc) = W (ix2 k cc)) (hb : ∀ cc : Fin 256, b (ix1 cc) = B (ix1 cc))
    (r : Fin 1000) (cc : Fin 256) (i : S10000x256.Idx) (hi0 : (i 0).val = n * 1000 + r.val) (hi1 : (i 1).val = cc.val) :
    k0_pay1 (F := Ideal) x w b (ix2 r cc) = Cert.Hand.lin1G X W B i := by
  obtain ⟨p, q, rfl⟩ : ∃ (p : Fin 10000) (q : Fin 256), i = ix2 p q := ⟨i 0, i 1, eq_ix2 i⟩
  obtain rfl : q = cc := Fin.ext hi1
  rw [k0_pay1_ix2, Cert.Hand.lin1G_ix2]
  unfold Cert.Hand.lin1At
  rw [hb]
  congr 1
  refine Finset.sum_congr rfl fun k _ => ?_
  rw [hx r k (ix2 p k) hi0 rfl, hw]

/-- What point `t` writes back is block `t` of the first layer of the arrays as the region finds them. -/
theorem flushed0 (c : Dev nD) (t : Fin cfg0.N) :
    (dat0 (F := Ideal) V c).flushed 3 t = ((cfg0.win 3).blk t).view.read (Elt Ideal)
      (Cert.Hand.lin1G (V c main_v44) (V c main_arg2) (V c main_arg3)) := by
  show (cfg0.win 3).cut (grid0.coords t) ((dat0 V c).after 3 t) = _
  rw [after0_3]
  unfold out0
  rw [View.canon_unit_zero hz2_0]
  simp only [View.ld_unit_zero (S := S1000x512) hz2_0, View.ld_unit_zero (S := S512x256) hz2_0, View.ld_unit_zero (S := S256) hz1_0]
  obtain ⟨e0, e1, e2, e3, e4, e5, e6⟩ := idx0 t
  funext j
  show k0_pay1 (F := Ideal) (blk0 V c 0 t) (blk0 V c 1 t) (blk0 V c 2 t) (j : S1000x256.Idx)
    = Cert.Hand.lin1G (V c main_v44) (V c main_arg2) (V c main_arg3) (((cfg0.win 3).blk t).view.emb j)
  obtain ⟨r, cc, rfl⟩ : ∃ (r : Fin 1000) (cc : Fin 256), j = ix2 r cc := ⟨j 0, j 1, eq_ix2 j⟩
  refine lin1_rows _ _ _ t.val _ _ _ ?_ ?_ ?_ r cc _ ?_ ?_
  · intro r k i h0 h1
    unfold blk0
    rw [View.read_apply]
    show V c main_v44 (((cfg0.win 0).blk t).view.emb (ix2 r k)) = V c main_v44 i
    congr 1
    funext a; apply Fin.ext
    match a with
    | ⟨0, _⟩ => show win0_0.index t (0 : Fin 2) * 1000 + 1 * r.val = (i 0).val; omega
    | ⟨1, _⟩ => show win0_0.index t (1 : Fin 2) * 512 + 1 * k.val = (i 1).val; omega
  · intro k cc
    unfold blk0
    rw [View.read_apply]
    show V c main_arg2 (((cfg0.win 1).blk t).view.emb (ix2 k cc)) = V c main_arg2 (ix2 k cc)
    congr 1
    funext a; apply Fin.ext
    match a with
    | ⟨0, _⟩ => show win0_1.index t (0 : Fin 2) * 512 + 1 * k.val = k.val; omega
    | ⟨1, _⟩ => show win0_1.index t (1 : Fin 2) * 256 + 1 * cc.val = cc.val; omega
  · intro cc
    unfold blk0
    rw [View.read_apply]
    show V c main_arg3 (((cfg0.win 2).blk t).view.emb (ix1 cc)) = V c main_arg3 (ix1 cc)
    congr 1
    funext a; apply Fin.ext
    match a with
    | ⟨0, _⟩ => show win0_2.index t (0 : Fin 1) * 256 + 1 * cc.val = cc.val; omega
  · show win0_3.index t (0 : Fin 2) * 1000 + 1 * r.val = t.val * 1000 + r.val; omega
  · show win0_3.index t (1 : Fin 2) * 256 + 1 * cc.val = cc.val; omega

/-- An index of the output array is in point `t`'s block iff each coordinate is in the block's range on its axis. -/
theorem mem_rows0 (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v45).slice (win0_3.rect t)).set ↔ _
  rw [View.set_slice_whole, Rect.mem_set_unit]
  exact Iff.rfl

/-- The row blocks tile the output array: row `r` is in the block of point `r / 1000`. -/
theorem rows_cover0 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := rfl
  let t : Fin cfg0.N := ⟨(i 0).val / 1000, by rw [hN]; omega⟩
  have ht : t.val = (i 0).val / 1000 := rfl
  refine ⟨t, flush0_3 t, ?_⟩
  rw [mem_rows0]
  obtain ⟨e0, e1, e2, e3, e4, e5, e6⟩ := idx0 t
  intro a
  match a with
  | ⟨0, _⟩ =>
    show win0_3.index t (0 : Fin 2) * 1000 ≤ (i 0).val ∧ (i 0).val < win0_3.index t (0 : Fin 2) * 1000 + 1000
    omega
  | ⟨1, _⟩ =>
    show win0_3.index t (1 : Fin 2) * 256 ≤ (i 1).val ∧ (i 1).val < win0_3.index t (1 : Fin 2) * 256 + 256
    omega

/-- The first layer's output array after the region: the layer of the arrays the region found. -/
theorem ker_lin1 (c : Dev nD) :
    (dat0 (F := Ideal) V c).arrAt 3 cfg0.N = Cert.Hand.lin1G (V c main_v44) (V c main_arg2) (V c main_arg3) :=
  (dat0 V c).arrAt_eq_of_cover 3 _ (fun t _ => flushed0 V c t) rows_cover0

end Cert.KernelIdeal.Hand

end
-- ==== Proof.KerVal1.lean ====
/-
  The second dense layer's output array after its region. The region walks ten row blocks of a thousand rows; at block
  `t` the body sees rows `1000 t … 1000 t + 999` of the input, the whole weight matrix and the whole bias, and leaves
  the layer's value on them, which is written back to rows `1000 t … 1000 t + 999` of the output. Entry by entry that
  is the layer of the whole arrays, and the ten row blocks tile the output: the array ends as the layer of the arrays
  the region found.
-/
import proofs.«118749_j50208167690259_1_alg».proof.Proof.R1
import proofs.«118749_j50208167690259_1_alg».proof.Proof.Spec
import proofs.«118749_j50208167690259_1_alg».proof.Proof.KerPay
import Idealize.ShloMosaic.Lib.ValueIdx
import Idealize.ShloMosaic.Lib.ValueLayout
import Idealize.ShloMosaic.Lib.Pipeline.Value
import Idealize.ShloMosaic.Lib.Pipeline.Dat
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- The printed index maps, decided over the grid: at point `t` the input's and the output's row block is block `t`
    (column block 0); the weight matrix and the bias are their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- A row block of the layer: when `x` is rows `1000 n …` of `X`, and `w`, `b` are all of `W`, `B`, the body's value
    at `(r, cc)` is the layer of the whole arrays at row `1000 n + r`, column `cc`. -/
theorem lin2_rows (X : FVec Ideal S10000x256 .f32) (W : FVec Ideal S256x64 .f32) (B : FVec Ideal S64 .f32) (n : ℕ)
    (x : Vec Ideal S1000x256 .f32) (w : Vec Ideal S256x64 .f32) (b : Vec Ideal S64 .f32)
    (hx : ∀ (r : Fin 1000) (k : Fin 256) (i : S10000x256.Idx), (i 0).val = n * 1000 + r.val → (i 1).val = k.val → x (ix2 r k) = X i)
    (hw : ∀ (k : Fin 256) (cc : Fin 64), w (ix2 k cc) = W (ix2 k cc)) (hb : ∀ cc : Fin 64, b (ix1 cc) = B (ix1 cc))
    (r : Fin 1000) (cc : Fin 64) (i : S10000x64.Idx) (hi0 : (i 0).val = n * 1000 + r.val) (hi1 : (i 1).val = cc.val) :
    k1_pay1 (F := Ideal) x w b (ix2 r cc) = Cert.Hand.lin2G X W B i := by
  obtain ⟨p, q, rfl⟩ : ∃ (p : Fin 10000) (q : Fin 64), i = ix2 p q := ⟨i 0, i 1, eq_ix2 i⟩
  obtain rfl : q = cc := Fin.ext hi1
  rw [k1_pay1_ix2, Cert.Hand.lin2G_ix2]
  unfold Cert.Hand.lin2At
  rw [hb]
  congr 1
  refine Finset.sum_congr rfl fun k _ => ?_
  rw [hx r k (ix2 p k) hi0 rfl, hw]

/-- What point `t` writes back is block `t` of the second layer of the arrays as the region finds them. -/
theorem flushed1 (c : Dev nD) (t : Fin cfg1.N) :
    (dat1 (F := Ideal) V c).flushed 3 t = ((cfg1.win 3).blk t).view.read (Elt Ideal)
      (Cert.Hand.lin2G (V c main_v58) (V c main_arg4) (V c main_arg5)) := by
  show (cfg1.win 3).cut (grid1.coords t) ((dat1 V c).after 3 t) = _
  rw [after1_3]
  unfold out1
  rw [View.canon_unit_zero hz2_1]
  simp only [View.ld_unit_zero (S := S1000x256) hz2_1, View.ld_unit_zero (S := S256x64) hz2_1, View.ld_unit_zero (S := S64) hz1_1]
  obtain ⟨e0, e1, e2, e3, e4, e5, e6⟩ := idx1 t
  funext j
  show k1_pay1 (F := Ideal) (blk1 V c 0 t) (blk1 V c 1 t) (blk1 V c 2 t) (j : S1000x64.Idx)
    = Cert.Hand.lin2G (V c main_v58) (V c main_arg4) (V c main_arg5) (((cfg1.win 3).blk t).view.emb j)
  obtain ⟨r, cc, rfl⟩ : ∃ (r : Fin 1000) (cc : Fin 64), j = ix2 r cc := ⟨j 0, j 1, eq_ix2 j⟩
  refine lin2_rows _ _ _ t.val _ _ _ ?_ ?_ ?_ r cc _ ?_ ?_
  · intro r k i h0 h1
    unfold blk1
    rw [View.read_apply]
    show V c main_v58 (((cfg1.win 0).blk t).view.emb (ix2 r k)) = V c main_v58 i
    congr 1
    funext a; apply Fin.ext
    match a with
    | ⟨0, _⟩ => show win1_0.index t (0 : Fin 2) * 1000 + 1 * r.val = (i 0).val; omega
    | ⟨1, _⟩ => show win1_0.index t (1 : Fin 2) * 256 + 1 * k.val = (i 1).val; omega
  · intro k cc
    unfold blk1
    rw [View.read_apply]
    show V c main_arg4 (((cfg1.win 1).blk t).view.emb (ix2 k cc)) = V c main_arg4 (ix2 k cc)
    congr 1
    funext a; apply Fin.ext
    match a with
    | ⟨0, _⟩ => show win1_1.index t (0 : Fin 2) * 256 + 1 * k.val = k.val; omega
    | ⟨1, _⟩ => show win1_1.index t (1 : Fin 2) * 64 + 1 * cc.val = cc.val; omega
  · intro cc
    unfold blk1
    rw [View.read_apply]
    show V c main_arg5 (((cfg1.win 2).blk t).view.emb (ix1 cc)) = V c main_arg5 (ix1 cc)
    congr 1
    funext a; apply Fin.ext
    match a with
    | ⟨0, _⟩ => show win1_2.index t (0 : Fin 1) * 64 + 1 * cc.val = cc.val; omega
  · show win1_3.index t (0 : Fin 2) * 1000 + 1 * r.val = t.val * 1000 + r.val; omega
  · show win1_3.index t (1 : Fin 2) * 64 + 1 * cc.val = cc.val; omega

/-- An index of the output array is in point `t`'s block iff each coordinate is in the block's range on its axis. -/
theorem mem_rows1 (t : Fin cfg1.N) (i : S10000x64.Idx) :
    i ∈ ((cfg1.win 3).blk t).view.set ↔ ∀ a : Fin 2, win1_3.index t a * S1000x64.size a ≤ (i a).val
      ∧ (i a).val < win1_3.index t a * S1000x64.size a + S1000x64.size a := by
  show i ∈ ((View.whole main_v59).slice (win1_3.rect t)).set ↔ _
  rw [View.set_slice_whole, Rect.mem_set_unit]
  exact Iff.rfl

/-- The row blocks tile the output array: row `r` is in the block of point `r / 1000`. -/
theorem rows_cover1 (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 10 := rfl
  let t : Fin cfg1.N := ⟨(i 0).val / 1000, by rw [hN]; omega⟩
  have ht : t.val = (i 0).val / 1000 := rfl
  refine ⟨t, flush1_3 t, ?_⟩
  rw [mem_rows1]
  obtain ⟨e0, e1, e2, e3, e4, e5, e6⟩ := idx1 t
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 64 ≤ (i 1).val ∧ (i 1).val < win1_3.index t (1 : Fin 2) * 64 + 64
    omega

/-- The second layer's output array after the region: the layer of the arrays the region found. -/
theorem ker_lin2 (c : Dev nD) :
    (dat1 (F := Ideal) V c).arrAt 3 cfg1.N = Cert.Hand.lin2G (V c main_v58) (V c main_arg4) (V c main_arg5) :=
  (dat1 V c).arrAt_eq_of_cover 3 _ (fun t _ => flushed1 V c t) rows_cover1

end Cert.KernelIdeal.Hand

end
-- ==== Proof.KerVal2.lean ====
/-
  The decode's output array after its region. The region walks fifty row blocks of two hundred rows; at block `t` the
  body sees rows `200 t … 200 t + 199` of the embedding and the whole embedding, and leaves the logistic function of
  their inner products, which is written back to rows `200 t … 200 t + 199` of the output. Entry by entry that is the
  decode of the whole embedding, and the fifty row blocks tile the output: the array ends as the decode of the
  embedding the region found.
-/
import proofs.«118749_j50208167690259_1_alg».proof.Proof.R2
import proofs.«118749_j50208167690259_1_alg».proof.Proof.Spec
import proofs.«118749_j50208167690259_1_alg».proof.Proof.KerPay
import Idealize.ShloMosaic.Lib.ValueIdx
import Idealize.ShloMosaic.Lib.ValueLayout
import Idealize.ShloMosaic.Lib.Pipeline.Value
import Idealize.ShloMosaic.Lib.Pipeline.Dat
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2_2 : (![0, 0] : Fin 2 → Nat) = fun _ => 0 := funext fun a => by fin_cases a <;> rfl

/-- The printed index maps, decided over the grid: at point `t` the row block of the embedding and of the output is
    block `t` (column block 0); the whole embedding is its one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A row block of the decode: when `z` is rows `200 n …` of `Z` and `zz` is all of `Z`, the body's value at
    `(r, cc)` is the decode of `Z` at row `200 n + r`, column `cc`. -/
theorem dec_rows (Z : FVec Ideal S10000x64 .f32) (n : ℕ) (z : Vec Ideal S200x64 .f32) (zz : Vec Ideal S10000x64 .f32)
    (hz : ∀ (r : Fin 200) (k : Fin 64) (i : S10000x64.Idx), (i 0).val = n * 200 + r.val → (i 1).val = k.val → z (ix2 r k) = Z i)
    (hzz : ∀ (p : Fin 10000) (k : Fin 64), zz (ix2 p k) = Z (ix2 p k))
    (r : Fin 200) (cc : Fin 10000) (i : S10000x10000.Idx) (hi0 : (i 0).val = n * 200 + r.val) (hi1 : (i 1).val = cc.val) :
    k2_pay1 (F := Ideal) z zz (ix2 r cc) = Cert.Hand.decG Z i := by
  obtain ⟨p, q, rfl⟩ : ∃ (p : Fin 10000) (q : Fin 10000), i = ix2 p q := ⟨i 0, i 1, eq_ix2 i⟩
  obtain rfl : q = cc := Fin.ext hi1
  rw [k2_pay1_ix2, Cert.Hand.decG_ix2]
  unfold Cert.Hand.decAt
  congr 1
  refine Finset.sum_congr rfl fun k _ => ?_
  rw [hz r k (ix2 p k) hi0 rfl, hzz]

/-- What point `t` writes back is block `t` of the decode of the embedding as the region finds it. -/
theorem flushed2 (c : Dev nD) (t : Fin cfg2.N) :
    (dat2 (F := Ideal) V c).flushed 2 t = ((cfg2.win 2).blk t).view.read (Elt Ideal) (Cert.Hand.decG (V c main_v59)) := by
  show (cfg2.win 2).cut (grid2.coords t) ((dat2 V c).after 2 t) = _
  rw [after2_2]
  unfold out2
  rw [View.canon_unit_zero hz2_2]
  simp only [View.ld_unit_zero (S := S200x64) hz2_2, View.ld_unit_zero (S := S10000x64) hz2_2]
  obtain ⟨e0, e1, e2, e3, e4, e5⟩ := idx2 t
  funext j
  show k2_pay1 (F := Ideal) (blk2 V c 0 t) (blk2 V c 1 t) (j : S200x10000.Idx)
    = Cert.Hand.decG (V c main_v59) (((cfg2.win 2).blk t).view.emb j)
  obtain ⟨r, cc, rfl⟩ : ∃ (r : Fin 200) (cc : Fin 10000), j = ix2 r cc := ⟨j 0, j 1, eq_ix2 j⟩
  refine dec_rows _ t.val _ _ ?_ ?_ r cc _ ?_ ?_
  · intro r k i h0 h1
    unfold blk2
    rw [View.read_apply]
    show V c main_v59 (((cfg2.win 0).blk t).view.emb (ix2 r k)) = V c main_v59 i
    congr 1
    funext a; apply Fin.ext
    match a with
    | ⟨0, _⟩ => show win2_0.index t (0 : Fin 2) * 200 + 1 * r.val = (i 0).val; omega
    | ⟨1, _⟩ => show win2_0.index t (1 : Fin 2) * 64 + 1 * k.val = (i 1).val; omega
  · intro p k
    unfold blk2
    rw [View.read_apply]
    show V c main_v59 (((cfg2.win 1).blk t).view.emb (ix2 p k)) = V c main_v59 (ix2 p k)
    congr 1
    funext a; apply Fin.ext
    match a with
    | ⟨0, _⟩ => show win2_1.index t (0 : Fin 2) * 10000 + 1 * p.val = p.val; omega
    | ⟨1, _⟩ => show win2_1.index t (1 : Fin 2) * 64 + 1 * k.val = k.val; omega
  · show win2_2.index t (0 : Fin 2) * 200 + 1 * r.val = t.val * 200 + r.val; omega
  · show win2_2.index t (1 : Fin 2) * 10000 + 1 * cc.val = cc.val; omega

/-- An index of the output array is in point `t`'s block iff each coordinate is in the block's range on its axis. -/
theorem mem_rows2 (t : Fin cfg2.N) (i : S10000x10000.Idx) :
    i ∈ ((cfg2.win 2).blk t).view.set ↔ ∀ a : Fin 2, win2_2.index t a * S200x10000.size a ≤ (i a).val
      ∧ (i a).val < win2_2.index t a * S200x10000.size a + S200x10000.size a := by
  show i ∈ ((View.whole main_v60).slice (win2_2.rect t)).set ↔ _
  rw [View.set_slice_whole, Rect.mem_set_unit]
  exact Iff.rfl

/-- The row blocks tile the output array: row `r` is in the block of point `r / 200`. -/
theorem rows_cover2 (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  have hN : cfg2.N = 50 := rfl
  let t : Fin cfg2.N := ⟨(i 0).val / 200, by rw [hN]; omega⟩
  have ht : t.val = (i 0).val / 200 := rfl
  refine ⟨t, flush2_2 t, ?_⟩
  rw [mem_rows2]
  obtain ⟨e0, e1, e2, e3, e4, e5⟩ := idx2 t
  intro a
  match a with
  | ⟨0, _⟩ =>
    show win2_2.index t (0 : Fin 2) * 200 ≤ (i 0).val ∧ (i 0).val < win2_2.index t (0 : Fin 2) * 200 + 200
    omega
  | ⟨1, _⟩ =>
    show win2_2.index t (1 : Fin 2) * 10000 ≤ (i 1).val ∧ (i 1).val < win2_2.index t (1 : Fin 2) * 10000 + 10000
    omega

/-- The decode's output array after the region: the decode of the embedding the region found. -/
theorem ker_dec (c : Dev nD) : (dat2 (F := Ideal) V c).arrAt 2 cfg2.N = Cert.Hand.decG (V c main_v59) :=
  (dat2 V c).arrAt_eq_of_cover 2 _ (fun t _ => flushed2 V c t) rows_cover2

end Cert.KernelIdeal.Hand

end
-- ==== Proof.HostChain.lean ====
/-
  The arrays the program computes outside its three kernels, as functions of the launch arguments.
  Between the kernels the program prepares each layer's input by the same operations as the reference: the edge lists
  with the self-loops appended, the degrees and the edge weights from them, and for each layer the neighbours' rows
  gathered along the sources, scaled by the edge weights and added up at the targets. Each such array is therefore
  the reference's stage of the same name read at the launch arguments; nothing here opens a gather or a scatter-add.
  Each equation is proved in two steps through the array written out as one term of the arguments: the program's
  fold of its operations is that term, and that term is the reference's stage.
-/
import proofs.«118749_j50208167690259_1_alg».proof.Proof.KitRun
import proofs.«118749_j50208167690259_1_alg».proof.Proof.RefReadP
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-! ## The arguments reach each layer unchanged -/

/-- No operation before the first layer writes an argument. -/
theorem U3_arg (r : Ref sig .tc) (h0 : r ∉ hostOps0_W) (h1 : r ∉ hostOps0_1_W) (h2 : r ∉ hostOps0_2_W) :
    U3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- The first layer's weights are the launch's. -/
theorem chain_W1 : U3 m c (Proc.devRef .tc main_arg2) = (m ((c : Thread nD τ).loc main_arg2)) :=
  U3_arg m c main_arg2 (by decide) (by decide) (by decide)
/-- The first layer's bias is the launch's. -/
theorem chain_b1 : U3 m c (Proc.devRef .tc main_arg3) = (m ((c : Thread nD τ).loc main_arg3)) :=
  U3_arg m c main_arg3 (by decide) (by decide) (by decide)

/-- Nor does the first layer (its output array is no argument) or any operation between the two layers. -/
theorem U5_arg (r : Ref sig .tc) (h0 : r ∉ hostOps0_W) (h1 : r ∉ hostOps0_1_W) (h2 : r ∉ hostOps0_2_W) (h3 : r ∉ hostOps1_W)
    (n0 : r ≠ main_v45) : U5 m c (Proc.devRef .tc r) = m ((c : Thread nD τ).loc r) :=
  (StableHlo.after_of_writes_sub hostOps1 _ hostOps1_writes h3).trans <| (U0x_of_ne m c r n0).trans <| U3_arg m c r h0 h1 h2

/-- The second layer's weights are the launch's. -/
theorem chain_W2 : U5 m c (Proc.devRef .tc main_arg4) = (m ((c : Thread nD τ).loc main_arg4)) :=
  U5_arg m c main_arg4 (by decide) (by decide) (by decide) (by decide) (by decide)
/-- The second layer's bias is the launch's. -/
theorem chain_b2 : U5 m c (Proc.devRef .tc main_arg5) = (m ((c : Thread nD τ).loc main_arg5)) :=
  U5_arg m c main_arg5 (by decide) (by decide) (by decide) (by decide) (by decide)

/-! ## The arrays as single terms of the arguments -/

/-- The edge weights, as one term of the edge list `E`: the product of the guarded inverse square roots of the degrees
    at an edge's two ends. -/
def agg31 (E : IVec S2x320000 32) : FVec F S330000 .f32 :=
  mulf (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (maximumf (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0)))) (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (maximumf (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0))))

/-- The first layer's aggregated input, as one term of the features `X` and the edge list `E`: the rows of `X` gathered
    along the sources, scaled by the edge weights, added up at the targets. -/
def agg1 (X : FVec F S10000x512 .f32) (E : IVec S2x320000 32) : FVec F S10000x512 .f32 :=
  Host.scatterAdd scatter_S10000x512_S330000x1_S330000x512_1_0_0_1 (broadcastInDim S10000x512 ![] bcast_S_S10000x512 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (mulf (Host.gather gather_S10000x512_S330000x1_S330000x512_1_0_n_n_0_1_1512 X (broadcastInDim S330000x1 ![0] bcast_S330000_S330000x1_0 (select (cmpi .slt (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0)))) (broadcastInDim S330000x512 ![0, 1] bcast_S330000x1_S330000x512_0_1 (broadcastInDim S330000x1 ![0] bcast_S330000_S330000x1_0 (mulf (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (maximumf (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] E slices_S2x320000_S1x320000_0_0) shapeCasts_S1x320000_S320000)⟩, ⟨S10000, (iotaInDim S10000 32 0)⟩] concatenates_S320000_S10000_S330000_d0)))) (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (maximumf (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![1, 0] E slices_S2x320000_S1x320000_1_0) shapeCasts_S1x320000_S320000)⟩, ⟨S10000, (iotaInDim S10000 32 0)⟩] concatenates_S320000_S10000_S330000_d0))))))))

/-- The second layer's aggregated input, as one term of the first layer's output `H`, the edge weights `nrm` and the
    two edge lists `src`, `dst`. -/
def agg2 (H : FVec F S10000x256 .f32) (nrm : FVec F S330000 .f32) (src dst : IVec S330000 32) : FVec F S10000x256 .f32 :=
  Host.scatterAdd scatter_S10000x256_S330000x1_S330000x256_1_0_0_1 (broadcastInDim S10000x256 ![] bcast_S_S10000x256 (constant S_ .f32 0x00000000#32)) (broadcastInDim S330000x1 ![0] bcast_S330000_S330000x1_0 dst) (mulf (Host.gather gather_S10000x256_S330000x1_S330000x256_1_0_n_n_0_1_1256 H (broadcastInDim S330000x1 ![0] bcast_S330000_S330000x1_0 (select (cmpi .slt src (broadcastInDim S330000 ![] bcast_S_S330000 (constantI S_ 32 0#32))) (addi src (broadcastInDim S330000 ![] bcast_S_S330000 (constantI S_ 32 10000#32))) src))) (broadcastInDim S330000x256 ![0, 1] bcast_S330000x1_S330000x256_0_1 (broadcastInDim S330000x1 ![0] bcast_S330000_S330000x1_0 nrm)))

/-! ## Before the first layer -/

set_option maxRecDepth 16384 in
set_option maxHeartbeats 4000000 in
/-- The sources with the self-loops appended. -/
theorem chain_v3 : U3 m c (Proc.devRef .tc main_v3) = Cert.ReferenceIdeal.ReadP.val_main_v3 (F := F) (m ((c : Thread nD τ).loc main_arg1)) := by
  after_results_simp <;> rfl

set_option maxRecDepth 16384 in
set_option maxHeartbeats 4000000 in
/-- The targets with the self-loops appended. -/
theorem chain_v6 : U3 m c (Proc.devRef .tc main_v6) = Cert.ReferenceIdeal.ReadP.val_main_v6 (F := F) (m ((c : Thread nD τ).loc main_arg1)) := by
  after_results_simp <;> rfl

set_option maxRecDepth 16384 in
set_option maxHeartbeats 4000000 in
/-- The program's edge weights are the term. -/
theorem U3_v31 : U3 m c (Proc.devRef .tc main_v31) = agg31 (m ((c : Thread nD τ).loc main_arg1)) := by
  after_results_simp <;> rfl

set_option maxRecDepth 16384 in
set_option maxHeartbeats 4000000 in
/-- The term is the reference's edge weights, which the reference computes a second time for its second layer. -/
theorem agg31_eq (E : IVec S2x320000 32) : agg31 E = Cert.ReferenceIdeal.ReadP.val_main_v63 (F := F) E := by
  unfold agg31; rfl

set_option maxRecDepth 16384 in
set_option maxHeartbeats 4000000 in
/-- The program's aggregated input of the first layer is the term. -/
theorem U3_v44 : U3 m c (Proc.devRef .tc main_v44) = agg1 (m ((c : Thread nD τ).loc main_arg0)) (m ((c : Thread nD τ).loc main_arg1)) := by
  after_results_simp <;> rfl

set_option maxRecDepth 16384 in
set_option maxHeartbeats 4000000 in
/-- The term is the reference's aggregated input of the first layer. -/
theorem agg1_eq (X : FVec F S10000x512 .f32) (E : IVec S2x320000 32) :
    agg1 X E = Cert.ReferenceIdeal.ReadP.val_main_v44 (F := F) X E := by
  unfold agg1; rfl

/-- The first layer's input is the reference's aggregated input at the launch arguments. -/
theorem chain_v44 : U3 m c (Proc.devRef .tc main_v44)
    = Cert.ReferenceIdeal.ReadP.val_main_v44 (F := F) (m ((c : Thread nD τ).loc main_arg0)) (m ((c : Thread nD τ).loc main_arg1)) :=
  (U3_v44 m c).trans (agg1_eq _ _)

/-! ## Between the two layers -/

set_option maxRecDepth 16384 in
set_option maxHeartbeats 4000000 in
/-- From any contents, the operations between the two layers leave in the second layer's input the term at the first
    layer's output, the edge weights and the two edge lists as they stand. -/
theorem after1_v58 (W : Valuation τ sig (Elt F)) :
    StableHlo.after hostOps1 W (Proc.devRef .tc main_v58)
      = agg2 (W (Proc.devRef .tc main_v45)) (W (Proc.devRef .tc main_v31)) (W (Proc.devRef .tc main_v3)) (W (Proc.devRef .tc main_v6)) := by
  after_results_simp <;> rfl

set_option maxRecDepth 16384 in
set_option maxHeartbeats 4000000 in
/-- The term at the reference's first layer, edge weights and edge lists is the reference's aggregated input of the
    second layer. -/
theorem agg2_eq (X : FVec F S10000x512 .f32) (E : IVec S2x320000 32) (w1 : FVec F S512x256 .f32) (bb1 : FVec F S256 .f32) :
    agg2 (Cert.ReferenceIdeal.ReadP.val_main_v48 (F := F) X E w1 bb1) (Cert.ReferenceIdeal.ReadP.val_main_v63 (F := F) E)
        (Cert.ReferenceIdeal.ReadP.val_main_v3 (F := F) E) (Cert.ReferenceIdeal.ReadP.val_main_v6 (F := F) E)
      = Cert.ReferenceIdeal.ReadP.val_main_v76 (F := F) X E w1 bb1 := by
  unfold agg2; rfl

/-- If the first layer leaves the reference's first layer in its output array, the second layer's input is the
    reference's aggregated input of the second layer. -/
theorem chain_v58
    (h : o0 m c = Cert.ReferenceIdeal.ReadP.val_main_v48 (F := F) (m ((c : Thread nD τ).loc main_arg0)) (m ((c : Thread nD τ).loc main_arg1)) (m ((c : Thread nD τ).loc main_arg2)) (m ((c : Thread nD τ).loc main_arg3))) :
    U5 m c (Proc.devRef .tc main_v58)
      = Cert.ReferenceIdeal.ReadP.val_main_v76 (F := F) (m ((c : Thread nD τ).loc main_arg0)) (m ((c : Thread nD τ).loc main_arg1)) (m ((c : Thread nD τ).loc main_arg2)) (m ((c : Thread nD τ).loc main_arg3)) := by
  refine (after1_v58 (U0x m c)).trans ?_
  rw [U0x_self, h, U0x_of_ne m c main_v31 (by decide), U0x_of_ne m c main_v3 (by decide), U0x_of_ne m c main_v6 (by decide),
    U3_v31, agg31_eq, chain_v3, chain_v6]
  exact agg2_eq _ _ _ _

end Cert.KernelIdeal.Hand

end
-- ==== Proof.RefLayers.lean ====
/-
  The reference's three dense stages as the specification's functions of whole arrays, over the extended reals.
  Each stage of the reference reads, at an index `(r, c)`, a sum over the shared axis of a product of two operand
  entries, plus a bias entry (the two layers), or the quotient `1 / (1 + e^(-s))` of an inner product `s` of two rows
  of the embedding (the decode). The aggregated inputs of the two layers are kept as they are: nothing here depends on
  how they are computed.
-/
import proofs.«118749_j50208167690259_1_alg».proof.Proof.RefReadP
import proofs.«118749_j50208167690259_1_alg».proof.Proof.Spec
import Idealize.ShloMosaic.Lib.IdealHost

noncomputable section

namespace Cert.Hand.RefLayers

open Cert.ReferenceIdeal Cert.ReferenceIdeal.ReadP Idealize.ShloMosaic

/-! ## The index maps of the three products at `(r, c)` -/

/-- Layer 1, left operand: row `r`, position `k` of the shared axis. -/
theorem lidx45 (r : Fin 10000) (c : Fin 256) (k : Fin 512) :
    lidx_main_v45 (ValueIdx.ix2 r c) k = ValueIdx.ix2 r k :=
  funext fun a => match a with | ⟨0, _⟩ => rfl | ⟨1, _⟩ => rfl

/-- Layer 1, right operand: position `k` of the shared axis, column `c`. -/
theorem ridx45 (r : Fin 10000) (c : Fin 256) (k : Fin 512) :
    ridx_main_v45 (ValueIdx.ix2 r c) k = ValueIdx.ix2 k c :=
  funext fun a => match a with | ⟨0, _⟩ => rfl | ⟨1, _⟩ => rfl

/-- Layer 1, the bias broadcast along the rows reads the bias at the column. -/
theorem bidx47 (r : Fin 10000) (c : Fin 256) :
    idx_main_v46 (idx_main_v47 (ValueIdx.ix2 r c)) = ValueIdx.ix1 c :=
  funext fun a => match a with | ⟨0, _⟩ => rfl

/-- Layer 2, left operand. -/
theorem lidx77 (r : Fin 10000) (c : Fin 64) (k : Fin 256) :
    lidx_main_v77 (ValueIdx.ix2 r c) k = ValueIdx.ix2 r k :=
  funext fun a => match a with | ⟨0, _⟩ => rfl | ⟨1, _⟩ => rfl

/-- Layer 2, right operand. -/
theorem ridx77 (r : Fin 10000) (c : Fin 64) (k : Fin 256) :
    ridx_main_v77 (ValueIdx.ix2 r c) k = ValueIdx.ix2 k c :=
  funext fun a => match a with | ⟨0, _⟩ => rfl | ⟨1, _⟩ => rfl

/-- Layer 2, the bias broadcast along the rows reads the bias at the column. -/
theorem bidx79 (r : Fin 10000) (c : Fin 64) :
    idx_main_v78 (idx_main_v79 (ValueIdx.ix2 r c)) = ValueIdx.ix1 c :=
  funext fun a => match a with | ⟨0, _⟩ => rfl

/-- Decode, left operand: row `r` of the embedding. -/
theorem lidx82 (r c : Fin 10000) (k : Fin 64) :
    lidx_main_v82 (ValueIdx.ix2 r c) k = ValueIdx.ix2 r k :=
  funext fun a => match a with | ⟨0, _⟩ => rfl | ⟨1, _⟩ => rfl

/-- Decode, right operand: the transposed embedding at `(k, c)` is the embedding at row `c`, position `k`. -/
theorem ridx82 (r c : Fin 10000) (k : Fin 64) :
    idx_main_v81 (ridx_main_v82 (ValueIdx.ix2 r c) k) = ValueIdx.ix2 c k :=
  funext fun a => match a with | ⟨0, _⟩ => rfl | ⟨1, _⟩ => rfl

/-! ## The three stages -/

/-- The first layer of the reference is the dense layer of its aggregated input. -/
theorem ref_lin1 (x0 : (⟨S10000x512, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal)) :
    val_main_v48 (F := Ideal) x0 x1 x2 x3 = Cert.Hand.lin1G (val_main_v44 (F := Ideal) x0 x1) x2 x3 := by
  funext i
  obtain ⟨r, c, rfl⟩ : ∃ (r : Fin 10000) (c : Fin 256), i = ValueIdx.ix2 r c := ⟨i 0, i 1, ValueIdx.eq_ix2 i⟩
  rw [val_main_v48_apply, val_main_v45_apply, val_main_v47_apply, val_main_v46_apply, bidx47]
  generalize val_main_v44 (F := Ideal) x0 x1 = y
  simp only [lidx45, ridx45]
  rfl

/-- The second layer of the reference is the dense layer of its aggregated input. -/
theorem ref_lin2 (x0 : (⟨S10000x512, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v80 (F := Ideal) x0 x1 x2 x3 x4 x5 = Cert.Hand.lin2G (val_main_v76 (F := Ideal) x0 x1 x2 x3) x4 x5 := by
  funext i
  obtain ⟨r, c, rfl⟩ : ∃ (r : Fin 10000) (c : Fin 64), i = ValueIdx.ix2 r c := ⟨i 0, i 1, ValueIdx.eq_ix2 i⟩
  rw [val_main_v80_apply, val_main_v77_apply, val_main_v79_apply, val_main_v78_apply, bidx79]
  generalize val_main_v76 (F := Ideal) x0 x1 x2 x3 = y
  simp only [lidx77, ridx77]
  rfl

/-- The reference's result is the logistic function of the inner products of the rows of its embedding: the quotient
    `1 / (1 + e^(-s))` it writes is the logistic function's own expression, and the constant `1.0` is the real one. -/
theorem ref_dec (x0 : (⟨S10000x512, .f32⟩ : BufTy).Contents (Elt Ideal)) (x1 : (⟨S2x320000, .i32⟩ : BufTy).Contents (Elt Ideal))
    (x2 : (⟨S512x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v88 (F := Ideal) x0 x1 x2 x3 x4 x5 = Cert.Hand.decG (val_main_v80 (F := Ideal) x0 x1 x2 x3 x4 x5) := by
  funext i
  obtain ⟨r, c, rfl⟩ : ∃ (r : Fin 10000) (c : Fin 10000), i = ValueIdx.ix2 r c := ⟨i 0, i 1, ValueIdx.eq_ix2 i⟩
  rw [val_main_v88_apply, val_main_v87_apply, val_main_cst_18_apply, val_main_v86_apply, val_main_v85_apply,
    val_main_cst_17_apply, val_main_v84_apply, val_main_v83_apply, val_main_v82_apply]
  simp only [val_main_v81_apply, lidx82, ridx82]
  generalize val_main_v80 (F := Ideal) x0 x1 x2 x3 x4 x5 = z
  rw [Cert.Hand.decG_ix2]
  unfold Cert.Hand.decAt Ideal.logistic
  generalize (∑ k : Fin 64, z (ValueIdx.ix2 r k) * z (ValueIdx.ix2 c k)) = s
  rw [Ideal.hostDivf_def, Ideal.addf_def, Ideal.hostUnary_exp_def, Ideal.hostNegf_def, Ideal.negf_def, Ideal.ofBits_def,
    Ideal.ofBits_one_f32]

end Cert.Hand.RefLayers

end
-- ==== Proof.KernelValue.lean ====
/-
  The kernel's result array as the reference's function of the launch arrays, over the extended reals. Each of the
  three regions leaves the specification's function of the arrays it found (the two dense layers, the decode); the
  arrays the two layers find are the reference's aggregated inputs and the launch weights and biases; and the
  reference's three dense stages are the same specification functions. Chained: the first layer's output is the
  reference's first layer, so the second layer's input is the reference's second aggregation, its output the
  reference's second layer, and the decode of that is the reference's result.
-/
import proofs.«118749_j50208167690259_1_alg».proof.Proof.KitRun
import proofs.«118749_j50208167690259_1_alg».proof.Proof.KerVal0
import proofs.«118749_j50208167690259_1_alg».proof.Proof.KerVal1
import proofs.«118749_j50208167690259_1_alg».proof.Proof.KerVal2
import proofs.«118749_j50208167690259_1_alg».proof.Proof.HostChain
import proofs.«118749_j50208167690259_1_alg».proof.Proof.RefLayers

set_option maxRecDepth 16384

noncomputable section

namespace Cert.KernelIdeal.Hand

open Cert.KernelIdeal Cert.KernelIdeal.Gen
open Idealize.ShloMosaic Idealize.ShloMosaic.TcCoe
open Cert.Hand.RefLayers (ref_lin1 ref_lin2 ref_dec)

/-- The first layer's output array is the reference's first layer of the launch arrays. -/
theorem layer1_value (m : (ℓ : Loc nD τ sig) → Buf (Elt Ideal) ℓ) (c : Dev nD) :
    o0 m c = Cert.ReferenceIdeal.ReadP.val_main_v48 (F := Ideal) (m ((c : Thread nD τ).loc main_arg0)) (m ((c : Thread nD τ).loc main_arg1))
      (m ((c : Thread nD τ).loc main_arg2)) (m ((c : Thread nD τ).loc main_arg3)) := by
  unfold o0
  rw [ker_lin1 (A3 m) c]
  show Cert.Hand.lin1G (U3 m c (Proc.devRef .tc main_v44)) (U3 m c (Proc.devRef .tc main_arg2)) (U3 m c (Proc.devRef .tc main_arg3)) = _
  rw [chain_v44, chain_W1, chain_b1, ← ref_lin1]

/-- The second layer's output array is the reference's second layer of the launch arrays. -/
theorem layer2_value (m : (ℓ : Loc nD τ sig) → Buf (Elt Ideal) ℓ) (c : Dev nD) :
    o1 m c = Cert.ReferenceIdeal.ReadP.val_main_v80 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  unfold o1
  rw [ker_lin2 (A5 m) c]
  show Cert.Hand.lin2G (U5 m c (Proc.devRef .tc main_v58)) (U5 m c (Proc.devRef .tc main_arg4)) (U5 m c (Proc.devRef .tc main_arg5)) = _
  rw [chain_v58 m c (layer1_value m c), chain_W2, chain_b2, ← ref_lin2]

/-- The kernel's result array is the reference's value of the launch arrays. -/
theorem kernel_value (m : (ℓ : Loc nD τ sig) → Buf (Elt Ideal) ℓ) (c : Dev nD) :
    o2 m c = Cert.ReferenceIdeal.ReadP.val_main_v88 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  unfold o2
  rw [ker_dec (A1x m) c]
  show Cert.Hand.decG (U1x m c (Proc.devRef .tc main_v59)) = _
  rw [U1x_self, layer2_value, ← ref_dec]

end Cert.KernelIdeal.Hand

end
-- ==== Proof.lean ====
/-
  A two-layer graph convolution followed by an inner-product decode, `sigmoid (Z Zᵀ)` with
  `Z = Â (Â X W₁ + b₁) W₂ + b₂` and `Â` the degree-normalised adjacency with self-loops, computed two ways.

  Both programs build `Â`'s action edge by edge on the host, with the same operations: the edge lists with the
  self-loops appended, the degrees by a scatter-add of ones, their guarded inverse square roots, the edge weights as a
  product of two gathers, and per layer a gather of the source rows, a scaling by the edge weights and a scatter-add
  into the destination rows. They differ in the dense parts. The kernel computes each layer `A W + b` in a pallas_call
  over ten blocks of a thousand rows — a block of `A` against the whole `W`, accumulated from zero, plus the bias row —
  and the decode in a pallas_call over fifty blocks of two hundred rows, a block of `Z` against the whole `Z` contracted
  along the feature axis, then the logistic function; the reference computes each layer as one matrix product plus a
  broadcast bias, and the decode as `Z` times its transpose followed by `1 / (1 + exp (-s))`.

  Over the extended reals a change of float format is the identity, a matrix product accumulated from zero is the sum
  over the contracted axis of the products of entries, the kernel's logistic function IS `1 / (1 + exp (-s))`, and the
  row blocks of a region tile its output array. So entry `(r, c)` of a layer is `∑ k, A (r, k) * W (k, c) + b c` on both
  sides, entry `(r, c)` of the decode is the logistic function of `∑ k, Z (r, k) * Z (c, k)` on both sides, and the host
  parts are the same terms of the arguments: no law of the extended reals beyond these readings is used, and the
  precondition (finite inputs) is never opened.

  The modules: `Spec` (the three whole-array functions); `R0`, `R1`, `R2` (each region's body run on its staging
  buffers and its proof data), `Share2` (the decode reads ONE array through two windows: its full share is dealt to them
  in halves and put together again), `KitRun` (@main as host stretches and regions: it terminates, the arguments end as
  launched, the result array ends at what the decode's write-backs leave) and their word-level counterparts `Bits…`;
  `KerPay`, `KerVal0`, `KerVal1`, `KerVal2` (each region's output array is its whole-array function of the region's
  input arrays); `RefRunP`, `RefReadP`, `RefLayers` (the reference's run, and its two layers and its decode as the same
  whole-array functions); `HostChain` (the kernel's host-computed arrays are the reference's);
  `KernelValue` (the kernel's result is the reference's function of the arguments); here, the five claims.
-/
import proofs.«118749_j50208167690259_1_alg».proof.Defs
import proofs.«118749_j50208167690259_1_alg».proof.Proof.Gen.Kernel
import proofs.«118749_j50208167690259_1_alg».proof.Proof.Gen.Kernel.Skeleton
import proofs.«118749_j50208167690259_1_alg».proof.Proof.Gen.Kernel.Launch
import proofs.«118749_j50208167690259_1_alg».proof.Proof.Gen.Kernel.Regions
import proofs.«118749_j50208167690259_1_alg».proof.Proof.Gen.Kernel.Points
import proofs.«118749_j50208167690259_1_alg».proof.Proof.Gen.KernelIdeal
import proofs.«118749_j50208167690259_1_alg».proof.Proof.Gen.KernelIdeal.Skeleton
import proofs.«118749_j50208167690259_1_alg».proof.Proof.Gen.KernelIdeal.Launch
import proofs.«118749_j50208167690259_1_alg».proof.Proof.Gen.KernelIdeal.Regions
import proofs.«118749_j50208167690259_1_alg».proof.Proof.Gen.KernelIdeal.Points
import proofs.«118749_j50208167690259_1_alg».proof.Proof.Gen.ReferenceIdeal
import proofs.«118749_j50208167690259_1_alg».proof.Proof.Gen.Pre_finite_inputs
import proofs.«118749_j50208167690259_1_alg».proof.Proof.BitsKitRun
import proofs.«118749_j50208167690259_1_alg».proof.Proof.KitRun
import proofs.«118749_j50208167690259_1_alg».proof.Proof.KernelValue
import proofs.«118749_j50208167690259_1_alg».proof.Proof.RefReadP
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ =>
  (θ_run Cert.Kernel.defs _ _).mono (fun _ h c => (h c).2) (Cert.Kernel.Hand.run_main (F := Bits) m ρ)

/-- The kernel read over the extended reals runs and leaves its arguments as launched. -/
theorem frame_ki : Cert.frame_KernelIdeal := fun m ρ _ =>
  (θ_run Cert.KernelIdeal.defs _ _).mono (fun _ h c => (h c).2) (Cert.KernelIdeal.Hand.run_main (F := Ideal) m ρ)

/-- The reference read over the extended reals runs and leaves its arguments as launched. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals, from memories that agree on the six arguments, the kernel's result array and the
    reference's both end at the reference's function of the arguments: the kernel's by its three regions' values
    chained through the host stretches, the reference's by its run read at the arguments. -/
theorem algebraic : Cert.algebraic_KernelIdeal_ReferenceIdeal := by
  intro m ρ m' ρ' _ hagree
  refine ⟨fun c => Cert.ReferenceIdeal.ReadP.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v88_eq m' c, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
